-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S1600000 : Shape := ⟨1, ![1600000]⟩
abbrev S100x100 : Shape := ⟨2, ![100, 100]⟩
abbrev S100 : Shape := ⟨1, ![100]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_

variable [Facts]

def fn_part3 {F : FTy → Type} [FloatOps F] (main_v48 : IVec S_ 1) (main_v49 : FVec F S100 .f32) (main_v50 : FVec F S100 .f32) : IVec S_ 1 :=
  let main_v51 : IVec S100 1 := cmpf .olt main_v49 main_v50
  let main_c_19 : IVec S_ 1 := constantI S_ 1 1#1
  let main_v52 : IVec S_ 1 := (fun x v => Host.reduce IntOp.andi x v reducesTo_S100_S_d0 h_S_) main_v51 main_c_19
  let main_v53 : IVec S_ 1 := andi main_v48 main_v52
  main_v53

def fn_part2 {F : FTy → Type} [FloatOps F] (main_arg8 : FVec F S100 .f32) (main_arg9 : FVec F S100x100 .f32) (main_arg10 : FVec F S100x100 .f32) (main_arg11 : FVec F S100 .f32) (main_v33 : IVec S_ 1) : IVec S_ 1 :=
  let main_v34 : FVec F S100 .f32 := Host.absf main_arg8
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S100x100 .f32 := Host.absf main_arg9
  let main_cst_14 : FVec F S_ .f32 := constant S_ .f32 0x7F800000#32
  let main_v40 : FVec F S100x100 .f32 := broadcastInDim S100x100 ![] bcast_S_S100x100 main_cst_14
  let main_v41 : IVec S100x100 1 := cmpf .olt main_v39 main_v40
  let main_c_15 : IVec S_ 1 := constantI S_ 1 1#1
  let main_v42 : IVec S_ 1 := (fun x v => Host.reduce IntOp.andi x v reducesTo_S100x100_S_d0_1 h_S_) main_v41 main_c_15
  let main_v43 : IVec S_ 1 := andi main_v38 main_v42
  let main_v44 : FVec F S100x100 .f32 := Host.absf main_arg10
  let main_cst_16 : FVec F S_ .f32 := constant S_ .f32 0x7F800000#32
  let main_v45 : FVec F S100x100 .f32 := broadcastInDim S100x100 ![] bcast_S_S100x100 main_cst_16
  let main_v46 : IVec S100x100 1 := cmpf .olt main_v44 main_v45
  let main_c_17 : IVec S_ 1 := constantI S_ 1 1#1
  let main_v47 : IVec S_ 1 := (fun x v => Host.reduce IntOp.andi x v reducesTo_S100x100_S_d0_1 h_S_) main_v46 main_c_17
  let main_v48 : IVec S_ 1 := andi main_v43 main_v47
  let main_v49 : FVec F S100 .f32 := Host.absf main_arg11
  let main_cst_18 : FVec F S_ .f32 := constant S_ .f32 0x7F800000#32
  let main_v50 : FVec F S100 .f32 := broadcastInDim S100 ![] bcast_S_S100 main_cst_18
  fn_part3 (F := F) main_v48 main_v49 main_v50

def fn_part1 {F : FTy → Type} [FloatOps F] (main_arg5 : FVec F S100 .f32) (main_arg6 : FVec F S100x100 .f32) (main_arg7 : FVec F S100x100 .f32) (main_arg8 : FVec F S100 .f32) (main_arg9 : FVec F S100x100 .f32) (main_arg10 : FVec F S100x100 .f32) (main_arg11 : FVec F S100 .f32) (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  let main_v19 : FVec F S100 .f32 := Host.absf main_arg5
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x100 .f32 := Host.absf main_arg6
  let main_cst_8 : FVec F S_ .f32 := constant S_ .f32 0x7F800000#32
  let main_v25 : FVec F S100x100 .f32 := broadcastInDim S100x100 ![] bcast_S_S100x100 main_cst_8
  let main_v26 : IVec S100x100 1 := cmpf .olt main_v24 main_v25
  let main_c_9 : IVec S_ 1 := constantI S_ 1 1#1
  let main_v27 : IVec S_ 1 := (fun x v => Host.reduce IntOp.andi x v reducesTo_S100x100_S_d0_1 h_S_) main_v26 main_c_9
  let main_v28 : IVec S_ 1 := andi main_v23 main_v27
  let main_v29 : FVec F S100x100 .f32 := Host.absf main_arg7
  let main_cst_10 : FVec F S_ .f32 := constant S_ .f32 0x7F800000#32
  let main_v30 : FVec F S100x100 .f32 := broadcastInDim S100x100 ![] bcast_S_S100x100 main_cst_10
  let main_v31 : IVec S100x100 1 := cmpf .olt main_v29 main_v30
  let main_c_11 : IVec S_ 1 := constantI S_ 1 1#1
  let main_v32 : IVec S_ 1 := (fun x v => Host.reduce IntOp.andi x v reducesTo_S100x100_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x100 .f32) (main_arg1 : IVec S2x1600000 32) (main_arg2 : FVec F S1600000 .f32) (main_arg3 : FVec F S100x100 .f32) (main_arg4 : FVec F S100x100 .f32) (main_arg5 : FVec F S100 .f32) (main_arg6 : FVec F S100x100 .f32) (main_arg7 : FVec F S100x100 .f32) (main_arg8 : FVec F S100 .f32) (main_arg9 : FVec F S100x100 .f32) (main_arg10 : FVec F S100x100 .f32) (main_arg11 : FVec F S100 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100x100 .f32 := Host.absf main_arg3
  let main_cst_2 : FVec F S_ .f32 := constant S_ .f32 0x7F800000#32
  let main_v10 : FVec F S100x100 .f32 := broadcastInDim S100x100 ![] bcast_S_S100x100 main_cst_2
  let main_v11 : IVec S100x100 1 := cmpf .olt main_v9 main_v10
  let main_c_3 : IVec S_ 1 := constantI S_ 1 1#1
  let main_v12 : IVec S_ 1 := (fun x v => Host.reduce IntOp.andi x v reducesTo_S100x100_S_d0_1 h_S_) main_v11 main_c_3
  let main_v13 : IVec S_ 1 := andi main_v8 main_v12
  let main_v14 : FVec F S100x100 .f32 := Host.absf main_arg4
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_arg5 main_arg6 main_arg7 main_arg8 main_arg9 main_arg10 main_arg11 main_v13 main_v16
-- ==== Kernel.lean ====
abbrev S100000x100 : Shape := ⟨2, ![100000, 100]⟩
abbrev S2x1600000 : Shape := ⟨2, ![2, 1600000]⟩
abbrev S1600000 : Shape := ⟨1, ![1600000]⟩
abbrev S100x100 : Shape := ⟨2, ![100, 100]⟩
abbrev S100 : Shape := ⟨1, ![100]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x100 : Shape := ⟨2, ![1600000, 100]⟩
abbrev S1x100 : Shape := ⟨2, ![1, 100]⟩
abbrev S10000x100 : Shape := ⟨2, ![10000, 100]⟩
abbrev S10000x1 : Shape := ⟨2, ![10000, 1]⟩

abbrev nBuf : Space → Nat
  | .hbm => 61
  | .vmem => 27
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S1600000, .f32⟩
  | .hbm, ⟨3, _⟩ => ⟨S100x100, .f32⟩
  | .hbm, ⟨4, _⟩ => ⟨S100x100, .f32⟩
  | .hbm, ⟨5, _⟩ => ⟨S100, .f32⟩
  | .hbm, ⟨6, _⟩ => ⟨S100x100, .f32⟩
  | .hbm, ⟨7, _⟩ => ⟨S100x100, .f32⟩
  | .hbm, ⟨8, _⟩ => ⟨S100, .f32⟩
  | .hbm, ⟨9, _⟩ => ⟨S100x100, .f32⟩
  | .hbm, ⟨10, _⟩ => ⟨S100x100, .f32⟩
  | .hbm, ⟨11, _⟩ => ⟨S100, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x100, .f32⟩
  | .hbm, ⟨38, _⟩ => ⟨S_, .f32⟩
  | .hbm, ⟨39, _⟩ => ⟨S100000x100, .f32⟩
  | .hbm, ⟨40, _⟩ => ⟨S1600000x1, .i32⟩
  | .hbm, ⟨41, _⟩ => ⟨S100000x100, .f32⟩
  | .hbm, ⟨42, _⟩ => ⟨S1x100, .f32⟩
  | .hbm, ⟨43, _⟩ => ⟨S100000x100, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x100, .f32⟩
  | .hbm, ⟨53, _⟩ => ⟨S_, .f32⟩
  | .hbm, ⟨54, _⟩ => ⟨S100000x100, .f32⟩
  | .hbm, ⟨55, _⟩ => ⟨S1600000x1, .i32⟩
  | .hbm, ⟨56, _⟩ => ⟨S100000x100, .f32⟩
  | .hbm, ⟨57, _⟩ => ⟨S1x100, .f32⟩
  | .hbm, ⟨58, _⟩ => ⟨S1x100, .f32⟩
  | .hbm, ⟨59, _⟩ => ⟨S100000x100, .f32⟩
  | .hbm, ⟨60, _⟩ => ⟨S100000x100, .f32⟩
  | .local _ .vmem, ⟨0, _⟩ => ⟨S10000x100, .f32⟩
  | .local _ .vmem, ⟨1, _⟩ => ⟨S10000x100, .f32⟩
  | .local _ .vmem, ⟨2, _⟩ => ⟨S10000x100, .f32⟩
  | .local _ .vmem, ⟨3, _⟩ => ⟨S10000x100, .f32⟩
  | .local _ .vmem, ⟨4, _⟩ => ⟨S10000x1, .f32⟩
  | .local _ .vmem, ⟨5, _⟩ => ⟨S10000x1, .f32⟩
  | .local _ .vmem, ⟨6, _⟩ => ⟨S100x100, .f32⟩
  | .local _ .vmem, ⟨7, _⟩ => ⟨S100x100, .f32⟩
  | .local _ .vmem, ⟨8, _⟩ => ⟨S1x100, .f32⟩
  | .local _ .vmem, ⟨9, _⟩ => ⟨S10000x100, .f32⟩
  | .local _ .vmem, ⟨10, _⟩ => ⟨S10000x100, .f32⟩
  | .local _ .vmem, ⟨11, _⟩ => ⟨S10000x100, .f32⟩
  | .local _ .vmem, ⟨12, _⟩ => ⟨S10000x100, .f32⟩
  | .local _ .vmem, ⟨13, _⟩ => ⟨S10000x100, .f32⟩
  | .local _ .vmem, ⟨14, _⟩ => ⟨S10000x100, .f32⟩
  | .local _ .vmem, ⟨15, _⟩ => ⟨S10000x1, .f32⟩
  | .local _ .vmem, ⟨16, _⟩ => ⟨S10000x1, .f32⟩
  | .local _ .vmem, ⟨17, _⟩ => ⟨S100x100, .f32⟩
  | .local _ .vmem, ⟨18, _⟩ => ⟨S100x100, .f32⟩
  | .local _ .vmem, ⟨19, _⟩ => ⟨S1x100, .f32⟩
  | .local _ .vmem, ⟨20, _⟩ => ⟨S100x100, .f32⟩
  | .local _ .vmem, ⟨21, _⟩ => ⟨S100x100, .f32⟩
  | .local _ .vmem, ⟨22, _⟩ => ⟨S1x100, .f32⟩
  | .local _ .vmem, ⟨23, _⟩ => ⟨S10000x100, .f32⟩
  | .local _ .vmem, ⟨24, _⟩ => ⟨S10000x100, .f32⟩
  | .local _ .vmem, ⟨25, _⟩ => ⟨S10000x100, .f32⟩
  | .local _ .vmem, ⟨26, _⟩ => ⟨S10000x100, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37_0 : Ref sig .tc := ⟨.hbm, 59, rfl⟩
abbrev main_v37_1 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg9_1 : Ref sig .tc := ⟨.vmem, 24, rfl⟩
abbrev cc1_stg10_0 : Ref sig .tc := ⟨.vmem, 25, rfl⟩
abbrev cc1_stg10_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem9_1 : DmaSem sig := 24
abbrev cc1_sem10_0 : DmaSem sig := 25
abbrev cc1_sem10_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S100x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S100x100 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x100 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S100x100 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100x100 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x100 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S100x100 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S100x100 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x100 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x100 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S10000x100 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x100 : S_.BroadcastsInDim S100000x100 (![] : Fin 0 → Fin S100000x100.rank)
  shapeCasts_S100_S1x100 : S100.ShapeCasts S1x100
  inb_S10000x100_S10000x100_0_0 : ∀ a, (![0, 0] : Fin 2 → Nat) a + S10000x100.size a ≤ S10000x100.size a
  h_S10000x100 : 0 < S10000x100.numel
  shapeCasts_S10000x100_S10000x100 : S10000x100.ShapeCasts S10000x100
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x100 : S10000x1.Broadcasts S10000x100
  inb_S100x100_S100x100_0_0 : ∀ a, (![0, 0] : Fin 2 → Nat) a + S100x100.size a ≤ S100x100.size a
  h_S100x100 : 0 < S100x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S10000x100 : S1x100.Broadcasts S10000x100
  scatter_S100000_S1600000x1_S1600000_n_0_0_1_wf : ScatterDims.WF S100000 S1600000x1 S1600000 [] [0] [0] 1
  gather_S100000x100_S1600000x1_S1600000x100_1_0_n_n_0_1_1100_wf : GatherDims.WF S100000x100 S1600000x1 S1600000x100 [1] [0] [] [0] [] 1 ![1, 100]
  scatter_S100000x100_S1600000x1_S1600000x100_1_0_0_1_wf : ScatterDims.WF S100000x100 S1600000x1 S1600000x100 [1] [0] [0] 1
  dot_S10000x100_S100x100_S10000x100_1_0_0_1_n_n_wf : DotDims.WF S10000x100 S100x100 S10000x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x100.size a ≤ S100000x100.size a
  hwx0_0 : ∀ i : grid0.Coords, EltTy.bits .f32 = 32 ∨ (Rect.block (s := S100000x100) S10000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x100.size a ≤ S100000x100.size a
  hwx0_1 : ∀ i : grid0.Coords, EltTy.bits .f32 = 32 ∨ (Rect.block (s := S100000x100) S10000x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S100x100.size a ≤ S100x100.size a
  hwx0_3 : ∀ i : grid0.Coords, EltTy.bits .f32 = 32 ∨ (Rect.block (s := S100x100) S100x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S100x100.size a ≤ S100x100.size a
  hwx0_4 : ∀ i : grid0.Coords, EltTy.bits .f32 = 32 ∨ (Rect.block (s := S100x100) S100x100.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x100.size a ≤ S1x100.size a
  hwx0_5 : ∀ i : grid0.Coords, EltTy.bits .f32 = 32 ∨ (Rect.block (s := S1x100) S1x100.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x100.size a ≤ S100000x100.size a
  hwx0_6 : ∀ i : grid0.Coords, EltTy.bits .f32 = 32 ∨ (Rect.block (s := S100000x100) S10000x100.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x100.size a ≤ S100000x100.size a
  hwx1_0 : ∀ i : grid1.Coords, EltTy.bits .f32 = 32 ∨ (Rect.block (s := S100000x100) S10000x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x100.size a ≤ S100000x100.size a
  hwx1_1 : ∀ i : grid1.Coords, EltTy.bits .f32 = 32 ∨ (Rect.block (s := S100000x100) S10000x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100x100.size a ≤ S100x100.size a
  hwx1_3 : ∀ i : grid1.Coords, EltTy.bits .f32 = 32 ∨ (Rect.block (s := S100x100) S100x100.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100x100.size a ≤ S100x100.size a
  hwx1_4 : ∀ i : grid1.Coords, EltTy.bits .f32 = 32 ∨ (Rect.block (s := S100x100) S100x100.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x100.size a ≤ S1x100.size a
  hwx1_5 : ∀ i : grid1.Coords, EltTy.bits .f32 = 32 ∨ (Rect.block (s := S1x100) S1x100.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S100x100.size a ≤ S100x100.size a
  hwx1_6 : ∀ i : grid1.Coords, EltTy.bits .f32 = 32 ∨ (Rect.block (s := S100x100) S100x100.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S100x100.size a ≤ S100x100.size a
  hwx1_7 : ∀ i : grid1.Coords, EltTy.bits .f32 = 32 ∨ (Rect.block (s := S100x100) S100x100.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x100.size a ≤ S1x100.size a
  hwx1_8 : ∀ i : grid1.Coords, EltTy.bits .f32 = 32 ∨ (Rect.block (s := S1x100) S1x100.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x100.size a ≤ S100000x100.size a
  hwx1_9 : ∀ i : grid1.Coords, EltTy.bits .f32 = 32 ∨ (Rect.block (s := S100000x100) S10000x100.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S10000x100.size a ≤ S100000x100.size a
  hwx1_10 : ∀ i : grid1.Coords, EltTy.bits .f32 = 32 ∨ (Rect.block (s := S100000x100) S10000x100.size (cc1_transform_10 i) (hinb1_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x100_S1600000x1_S1600000x100_1_0_n_n_0_1_1100 : GatherDims S100000x100 S1600000x1 S1600000x100 where
  offsetDims := [1]
  collapsedSliceDims := [0]
  operandBatchingDims := []
  startIndicesBatchingDims := []
  startIndexMap := [0]
  indexVectorDim := 1
  sliceSizes := ![1, 100]
  wf := gather_S100000x100_S1600000x1_S1600000x100_1_0_n_n_0_1_1100_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S10000x100_S100x100_S10000x100_1_0_0_1_n_n : DotDims S10000x100 S100x100 S10000x100 where
  lhsContracting := [1]
  rhsContracting := [0]
  lhsNonContracting := [0]
  rhsNonContracting := [1]
  lhsBatch := []
  rhsBatch := []
  wf := dot_S10000x100_S100x100_S10000x100_1_0_0_1_n_n_wf

abbrev win0_0 : Pipeline.Window sig grid0 :=
  Pipeline.Window.ofSpec (Memref.whole main_v22) S10000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S100x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S100x100.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x100.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S10000x100.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S10000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S10000x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S100x100.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S100x100.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x100.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S100x100.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S100x100.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S1x100.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37_0) S10000x100.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v37_1) S10000x100.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S1600000 : Shape := ⟨1, ![1600000]⟩
abbrev S100x100 : Shape := ⟨2, ![100, 100]⟩
abbrev S100 : Shape := ⟨1, ![100]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S1600000x100 : Shape := ⟨2, ![1600000, 100]⟩
abbrev S100000x1 : Shape := ⟨2, ![100000, 1]⟩
abbrev S1x100 : Shape := ⟨2, ![1, 100]⟩

abbrev nBuf : Space → Nat
  | .hbm => 112
  | .vmem => 0
  | .smem => 0
  | _ => 0

abbrev bufTy : (tb : Table) → Fin (tcTables nBuf tb) → BufTy
  | .hbm, ⟨0, _⟩ => ⟨S100000x100, .f32⟩
  | .hbm, ⟨1, _⟩ => ⟨S2x1600000, .i32⟩
  | .hbm, ⟨2, _⟩ => ⟨S1600000, .f32⟩
  | .hbm, ⟨3, _⟩ => ⟨S100x100, .f32⟩
  | .hbm, ⟨4, _⟩ => ⟨S100x100, .f32⟩
  | .hbm, ⟨5, _⟩ => ⟨S100, .f32⟩
  | .hbm, ⟨6, _⟩ => ⟨S100x100, .f32⟩
  | .hbm, ⟨7, _⟩ => ⟨S100x100, .f32⟩
  | .hbm, ⟨8, _⟩ => ⟨S100, .f32⟩
  | .hbm, ⟨9, _⟩ => ⟨S100x100, .f32⟩
  | .hbm, ⟨10, _⟩ => ⟨S100x100, .f32⟩
  | .hbm, ⟨11, _⟩ => ⟨S100, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x100, .f32⟩
  | .hbm, ⟨31, _⟩ => ⟨S_, .f32⟩
  | .hbm, ⟨32, _⟩ => ⟨S100000x100, .f32⟩
  | .hbm, ⟨33, _⟩ => ⟨S1600000x1, .i32⟩
  | .hbm, ⟨34, _⟩ => ⟨S100000x100, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x100, .f32⟩
  | .hbm, ⟨40, _⟩ => ⟨S100000x100, .f32⟩
  | .hbm, ⟨41, _⟩ => ⟨S100000x100, .f32⟩
  | .hbm, ⟨42, _⟩ => ⟨S100000x100, .f32⟩
  | .hbm, ⟨43, _⟩ => ⟨S100000x100, .f32⟩
  | .hbm, ⟨44, _⟩ => ⟨S1x100, .f32⟩
  | .hbm, ⟨45, _⟩ => ⟨S100000x100, .f32⟩
  | .hbm, ⟨46, _⟩ => ⟨S100000x100, .f32⟩
  | .hbm, ⟨47, _⟩ => ⟨S_, .f32⟩
  | .hbm, ⟨48, _⟩ => ⟨S100000x100, .f32⟩
  | .hbm, ⟨49, _⟩ => ⟨S100000x100, .f32⟩
  | .hbm, ⟨50, _⟩ => ⟨S_, .f32⟩
  | .hbm, ⟨51, _⟩ => ⟨S1600000, .f32⟩
  | .hbm, ⟨52, _⟩ => ⟨S_, .f32⟩
  | .hbm, ⟨53, _⟩ => ⟨S100000, .f32⟩
  | .hbm, ⟨54, _⟩ => ⟨S1600000x1, .i32⟩
  | .hbm, ⟨55, _⟩ => ⟨S100000, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x100, .f32⟩
  | .hbm, ⟨65, _⟩ => ⟨S_, .f32⟩
  | .hbm, ⟨66, _⟩ => ⟨S100000x100, .f32⟩
  | .hbm, ⟨67, _⟩ => ⟨S1600000x1, .i32⟩
  | .hbm, ⟨68, _⟩ => ⟨S100000x100, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x100, .f32⟩
  | .hbm, ⟨74, _⟩ => ⟨S100000x100, .f32⟩
  | .hbm, ⟨75, _⟩ => ⟨S100000x100, .f32⟩
  | .hbm, ⟨76, _⟩ => ⟨S100000x100, .f32⟩
  | .hbm, ⟨77, _⟩ => ⟨S100000x100, .f32⟩
  | .hbm, ⟨78, _⟩ => ⟨S1x100, .f32⟩
  | .hbm, ⟨79, _⟩ => ⟨S100000x100, .f32⟩
  | .hbm, ⟨80, _⟩ => ⟨S100000x100, .f32⟩
  | .hbm, ⟨81, _⟩ => ⟨S_, .f32⟩
  | .hbm, ⟨82, _⟩ => ⟨S1600000, .f32⟩
  | .hbm, ⟨83, _⟩ => ⟨S_, .f32⟩
  | .hbm, ⟨84, _⟩ => ⟨S100000, .f32⟩
  | .hbm, ⟨85, _⟩ => ⟨S1600000x1, .i32⟩
  | .hbm, ⟨86, _⟩ => ⟨S100000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x100, .f32⟩
  | .hbm, ⟨96, _⟩ => ⟨S_, .f32⟩
  | .hbm, ⟨97, _⟩ => ⟨S100000x100, .f32⟩
  | .hbm, ⟨98, _⟩ => ⟨S1600000x1, .i32⟩
  | .hbm, ⟨99, _⟩ => ⟨S100000x100, .f32⟩
  | .hbm, ⟨100, _⟩ => ⟨S_, .f32⟩
  | .hbm, ⟨101, _⟩ => ⟨S100000, .f32⟩
  | .hbm, ⟨102, _⟩ => ⟨S100000, .f32⟩
  | .hbm, ⟨103, _⟩ => ⟨S100000x1, .f32⟩
  | .hbm, ⟨104, _⟩ => ⟨S100000x100, .f32⟩
  | .hbm, ⟨105, _⟩ => ⟨S100000x100, .f32⟩
  | .hbm, ⟨106, _⟩ => ⟨S100000x100, .f32⟩
  | .hbm, ⟨107, _⟩ => ⟨S100000x100, .f32⟩
  | .hbm, ⟨108, _⟩ => ⟨S100000x100, .f32⟩
  | .hbm, ⟨109, _⟩ => ⟨S1x100, .f32⟩
  | .hbm, ⟨110, _⟩ => ⟨S100000x100, .f32⟩
  | .hbm, ⟨111, _⟩ => ⟨S100000x100, .f32⟩
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_cst : Ref sig .tc := ⟨.hbm, 47, rfl⟩
abbrev main_call0_v0 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_c_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x100 : S_.BroadcastsInDim S100000x100 (![] : Fin 0 → Fin S100000x100.rank)
  bcast_S100000_S100000x1_0 : S100000.BroadcastsInDim S100000x1 (![0] : Fin 1 → Fin S100000x1.rank)
  bcast_S100000x1_S100000x100_0_1 : S100000x1.BroadcastsInDim S100000x100 (![0, 1] : Fin 2 → Fin S100000x100.rank)
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  scatter_S100000_S1600000x1_S1600000_n_0_0_1_wf : ScatterDims.WF S100000 S1600000x1 S1600000 [] [0] [0] 1
  gather_S100000x100_S1600000x1_S1600000x100_1_0_n_n_0_1_1100_wf : GatherDims.WF S100000x100 S1600000x1 S1600000x100 [1] [0] [] [0] [] 1 ![1, 100]
  scatter_S100000x100_S1600000x1_S1600000x100_1_0_0_1_wf : ScatterDims.WF S100000x100 S1600000x1 S1600000x100 [1] [0] [0] 1
  dot_S100000x100_S100x100_S100000x100_1_0_0_1_n_n_wf : DotDims.WF S100000x100 S100x100 S100000x100 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x100_S1600000x1_S1600000x100_1_0_n_n_0_1_1100 : GatherDims S100000x100 S1600000x1 S1600000x100 where
  offsetDims := [1]
  collapsedSliceDims := [0]
  operandBatchingDims := []
  startIndicesBatchingDims := []
  startIndexMap := [0]
  indexVectorDim := 1
  sliceSizes := ![1, 100]
  wf := gather_S100000x100_S1600000x1_S1600000x100_1_0_n_n_0_1_1100_wf
def scatter_S100000x100_S1600000x1_S1600000x100_1_0_0_1 : ScatterDims S100000x100 S1600000x1 S1600000x100 where
  updateWindowDims := [1]
  insertedWindowDims := [0]
  scatterDimsToOperandDims := [0]
  indexVectorDim := 1
  wf := scatter_S100000x100_S1600000x1_S1600000x100_1_0_0_1_wf
def dot_S100000x100_S100x100_S100000x100_1_0_0_1_n_n : DotDims S100000x100 S100x100 S100000x100 where
  lhsContracting := [1]
  rhsContracting := [0]
  lhsNonContracting := [0]
  rhsNonContracting := [1]
  lhsBatch := []
  rhsBatch := []
  wf := dot_S100000x100_S100x100_S100000x100_1_0_0_1_n_n_wf

class Facts : Prop extends Facts₀ where

variable [Facts]
-- ==== Proof.KernelRun.lean ====
/-
  The idealized kernel program's run, with its two result arrays named.

  The program is four segments: host operations, the first kernel's grid, host operations, the second kernel's grid.
  Every weakly fair execution runs them in order and terminates without a fault; at the end every buffer holds what the
  fold of the four segments over the launch memory gives.  Read at the two result arrays that is what the second
  grid's write-backs leave; read at an argument it is the launch contents, since nothing writes an argument.
-/
import proofs.«126210_j88064009437412_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the two result arrays at the fold's final contents
    and the twelve arguments as launched. -/
theorem run_outputs : θ_run defs (onTc (τ := τ) (main (F := F))) ⟨m, fun _ => 0, ρ⟩ (fun r => ∀ c : Dev nD,
      r.2.mem ((c.tc : Thread nD τ).loc main_v37_0) = W4 m ρ c (Proc.devRef .tc main_v37_0)
      ∧ r.2.mem ((c.tc : Thread nD τ).loc main_v37_1) = W4 m ρ c (Proc.devRef .tc main_v37_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37_0 (by decide)),
       h c _ (mem_uc main_v37_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.LibColumn.lean ====
/-
  Two layout operations read at an index, for a column kept as a trailing unit axis (a row statistic `[a]` carried as
  `[a, 1]` and spread over the `b` entries of each row), in the style of the library's `shapeCast_a_1a_apply` and
  `broadcastTo_1b_ab_apply`.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Payload.lean ====
/-
  What the two kernel bodies compute on one block of rows, entry by entry over the extended reals.

  A block holds 10000 consecutive nodes.  From the block of neighbour sums `s`, the block of own features `x`, the
  block of reciprocal degrees `r` (one column), two weight matrices `A`, `R` and a one-row bias `b`, both bodies form

      (∑ k, (s (p, k) · r (p, 0)) · A (k, q))  +  (∑ k, x (p, k) · R (k, q))  +  b (0, q)

  at row `p` and feature `q`: the product into a zero accumulator is the plain sum over the shared coordinate, the
  reciprocal column spread over the row reads the row's one entry, the bias row spread over the block reads the
  feature's entry, and the shape casts are identities.  The first body rectifies that number; the second body forms it
  twice, once per head, from the same `s`, `x`, `r`.
-/
import proofs.«126210_j88064009437412_2_alg».proof.Proof.Gen.KernelIdeal.Skeleton
import proofs.«126210_j88064009437412_2_alg».proof.Proof.LibProduct
import proofs.«126210_j88064009437412_2_alg».proof.Proof.LibColumn
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-- One block's number at row `p`, feature `q`, before any rectification. -/
def blockAt (s x : S10000x100.Idx → EReal) (r : S10000x1.Idx → EReal) (A R : S100x100.Idx → EReal) (b : S1x100.Idx → EReal)
    (p : Fin 10000) (q : Fin 100) : EReal :=
  (∑ k : Fin 100, (s (ix2 p k) * r (ix2 p (0 : Fin 1))) * A (ix2 k q)) + (∑ k : Fin 100, x (ix2 p k) * R (ix2 k q))
    + b (ix2 (0 : Fin 1) q)

/-- The scaled neighbour sums multiplied into a weight matrix, at an entry. -/
theorem scaled_product_apply (s : FVec Ideal S10000x100 .f32) (r : FVec Ideal S10000x1 .f32) (A : FVec Ideal S100x100 .f32)
    (p : Fin 10000) (q : Fin 100) :
    matmul (F := Ideal) dot_S10000x100_S100x100_S10000x100_1_0_0_1_n_n none
        (mulf (shapeCast S10000x100 s shapeCasts_S10000x100_S10000x100)
          (broadcastTo S10000x100 (shapeCast S10000x1 r shapeCasts_S10000x1_S10000x1) broadcasts_S10000x1_S10000x100))
        A (constant (F := Ideal) S10000x100 .f32 0x00000000#32) (ix2 p q)
      = ∑ k : Fin 100, (s (ix2 p k) * r (ix2 p (0 : Fin 1))) * A (ix2 k q) := by
  rw [shapeCast_self, shapeCast_self]
  refine (Cert.LibProduct.matmul_zero_apply dot_S10000x100_S100x100_S10000x100_1_0_0_1_n_n rfl rfl rfl rfl rfl rfl none _ A p q).trans ?_
  refine Finset.sum_congr rfl fun k _ => ?_
  show (s (ix2 p k) * broadcastTo S10000x100 r broadcasts_S10000x1_S10000x100 (ix2 p k)) * A (ix2 k q) = _
  rw [Cert.LibColumn.broadcastTo_a1_ab_apply]

/-- The own features multiplied into a weight matrix, at an entry. -/
theorem plain_product_apply (x : FVec Ideal S10000x100 .f32) (R : FVec Ideal S100x100 .f32) (p : Fin 10000) (q : Fin 100) :
    matmul (F := Ideal) dot_S10000x100_S100x100_S10000x100_1_0_0_1_n_n none x R (constant (F := Ideal) S10000x100 .f32 0x00000000#32) (ix2 p q)
      = ∑ k : Fin 100, x (ix2 p k) * R (ix2 k q) :=
  Cert.LibProduct.matmul_zero_apply dot_S10000x100_S100x100_S10000x100_1_0_0_1_n_n rfl rfl rfl rfl rfl rfl none x R p q

/-- The bias row spread over the block, at an entry. -/
theorem bias_apply (b : FVec Ideal S1x100 .f32) (p : Fin 10000) (q : Fin 100) :
    broadcastTo S10000x100 (shapeCast S1x100 b shapeCasts_S1x100_S1x100) broadcasts_S1x100_S10000x100 (ix2 p q)
      = b (ix2 (0 : Fin 1) q) := by
  rw [shapeCast_self]
  exact broadcastTo_1b_ab_apply b broadcasts_S1x100_S10000x100 p q

/-- The first body's stored value: the block's number, rectified. -/
theorem k0_pay1_apply (v0 : FVec Ideal S10000x100 .f32) (v2 : FVec Ideal S10000x1 .f32) (v6 : FVec Ideal S100x100 .f32)
    (v8 : FVec Ideal S10000x100 .f32) (v9 : FVec Ideal S100x100 .f32) (v12 : FVec Ideal S1x100 .f32) (p : Fin 10000) (q : Fin 100) :
    k0_pay1 (F := Ideal) v0 v2 v6 v8 v9 v12 (ix2 p q) = max (blockAt v0 v8 v2 v6 v9 v12 p q) 0 := by
  unfold k0_pay1 blockAt
  show max ((matmul (F := Ideal) dot_S10000x100_S100x100_S10000x100_1_0_0_1_n_n none
        (mulf (shapeCast S10000x100 v0 shapeCasts_S10000x100_S10000x100)
          (broadcastTo S10000x100 (shapeCast S10000x1 v2 shapeCasts_S10000x1_S10000x1) broadcasts_S10000x1_S10000x100))
        v6 (constant (F := Ideal) S10000x100 .f32 0x00000000#32) (ix2 p q)
      + matmul (F := Ideal) dot_S10000x100_S100x100_S10000x100_1_0_0_1_n_n none v8 v9 (constant (F := Ideal) S10000x100 .f32 0x00000000#32) (ix2 p q))
      + broadcastTo S10000x100 (shapeCast S1x100 v12 shapeCasts_S1x100_S1x100) broadcasts_S1x100_S10000x100 (ix2 p q))
      (Ideal.ofBits .f32 0x00000000#32) = _
  rw [scaled_product_apply, plain_product_apply, bias_apply, Ideal.ofBits_zero_f32]

/-- The second body's first stored value: the block's number under the first head's weights. -/
theorem k1_pay3_apply (v0 : FVec Ideal S10000x100 .f32) (v2 : FVec Ideal S10000x1 .f32) (v6 : FVec Ideal S10000x100 .f32)
    (v8 v10 : FVec Ideal S100x100 .f32) (v13 : FVec Ideal S1x100 .f32) (p : Fin 10000) (q : Fin 100) :
    k1_pay3 (F := Ideal) v0 v2 v6 v8 v10 v13 (ix2 p q) = blockAt v0 v6 v2 v8 v10 v13 p q := by
  unfold k1_pay3 k1_pay1 k1_pay2 blockAt
  show (matmul (F := Ideal) dot_S10000x100_S100x100_S10000x100_1_0_0_1_n_n none
        (mulf (shapeCast S10000x100 v0 shapeCasts_S10000x100_S10000x100)
          (broadcastTo S10000x100 (shapeCast S10000x1 v2 shapeCasts_S10000x1_S10000x1) broadcasts_S10000x1_S10000x100))
        v8 (constant (F := Ideal) S10000x100 .f32 0x00000000#32) (ix2 p q)
      + matmul (F := Ideal) dot_S10000x100_S100x100_S10000x100_1_0_0_1_n_n none (shapeCast S10000x100 v6 shapeCasts_S10000x100_S10000x100) v10
          (constant (F := Ideal) S10000x100 .f32 0x00000000#32) (ix2 p q))
      + broadcastTo S10000x100 (shapeCast S1x100 v13 shapeCasts_S1x100_S1x100) broadcasts_S1x100_S10000x100 (ix2 p q) = _
  rw [scaled_product_apply, shapeCast_self, plain_product_apply, bias_apply]

/-- The second body's second stored value: the same under the second head's weights. -/
theorem k1_pay4_apply (v0 : FVec Ideal S10000x100 .f32) (v2 : FVec Ideal S10000x1 .f32) (v6 : FVec Ideal S10000x100 .f32)
    (v17 v19 : FVec Ideal S100x100 .f32) (v22 : FVec Ideal S1x100 .f32) (p : Fin 10000) (q : Fin 100) :
    k1_pay4 (F := Ideal) v0 v2 v6 v17 v19 v22 (ix2 p q) = blockAt v0 v6 v2 v17 v19 v22 p q := by
  unfold k1_pay4 k1_pay1 k1_pay2 blockAt
  show (matmul (F := Ideal) dot_S10000x100_S100x100_S10000x100_1_0_0_1_n_n none
        (mulf (shapeCast S10000x100 v0 shapeCasts_S10000x100_S10000x100)
          (broadcastTo S10000x100 (shapeCast S10000x1 v2 shapeCasts_S10000x1_S10000x1) broadcasts_S10000x1_S10000x100))
        v17 (constant (F := Ideal) S10000x100 .f32 0x00000000#32) (ix2 p q)
      + matmul (F := Ideal) dot_S10000x100_S100x100_S10000x100_1_0_0_1_n_n none (shapeCast S10000x100 v6 shapeCasts_S10000x100_S10000x100) v19
          (constant (F := Ideal) S10000x100 .f32 0x00000000#32) (ix2 p q))
      + broadcastTo S10000x100 (shapeCast S1x100 v22 shapeCasts_S1x100_S1x100) broadcasts_S1x100_S10000x100 (ix2 p q) = _
  rw [scaled_product_apply, shapeCast_self, plain_product_apply, bias_apply]

end Cert.KernelIdeal.BlockValue

end
-- ==== Proof.Rows.lean ====
/-
  The row function: what a layer computes for one node from whole arrays, when the reciprocal degree is carried as
  a column and the bias as a one-row array, and how a block's number (`Payload.lean`) is an instance of it.

  A grid point works on 10000 consecutive nodes; row `y` of the block of point `t` is node 10000·t + y.  When the
  block's entries are the arrays' entries of that node, the block's number at `(y, q)` is the row function at
  `(10000·t + y, q)`: the two are the same expression in those entries.
-/
import proofs.«126210_j88064009437412_2_alg».proof.Proof.Payload

set_option maxRecDepth 16384

noncomputable section

namespace Cert.KernelIdeal.RowValue

open Cert.KernelIdeal Cert.KernelIdeal.Gen Cert.KernelIdeal.BlockValue
open Idealize.ShloMosaic Idealize.ShloMosaic.TcCoe Idealize.ShloMosaic.ValueIdx Idealize.SL.Sem

/-! ## The whole-array row function -/

/-- Node `n`, feature `q`: the scaled neighbour sums into one matrix, the own features into the other, the bias. -/
def rowAt (s x : S100000x100.Idx → EReal) (r : S100000x1.Idx → EReal) (A R : S100x100.Idx → EReal) (b : S1x100.Idx → EReal)
    (n : Fin 100000) (q : Fin 100) : EReal :=
  (∑ k : Fin 100, (s (ix2 n k) * r (ix2 n (0 : Fin 1))) * A (ix2 k q)) + (∑ k : Fin 100, x (ix2 n k) * R (ix2 k q))
    + b (ix2 (0 : Fin 1) q)

/-- The row function as an array. -/
def rows (s x : S100000x100.Idx → EReal) (r : S100000x1.Idx → EReal) (A R : S100x100.Idx → EReal) (b : S1x100.Idx → EReal) :
    S100000x100.Idx → EReal := fun j => rowAt s x r A R b (j 0) (j 1)

/-- The rectified row function as an array. -/
def rowsRectified (s x : S100000x100.Idx → EReal) (r : S100000x1.Idx → EReal) (A R : S100x100.Idx → EReal) (b : S1x100.Idx → EReal) :
    S100000x100.Idx → EReal := fun j => max (rowAt s x r A R b (j 0) (j 1)) 0

/-- A block's number is the row function's, when the block's entries are the arrays' entries of that node. -/
theorem blockAt_eq_rowAt (s x : S10000x100.Idx → EReal) (r : S10000x1.Idx → EReal) (A R : S100x100.Idx → EReal) (b : S1x100.Idx → EReal)
    (s' x' : S100000x100.Idx → EReal) (r' : S100000x1.Idx → EReal) (A' R' : S100x100.Idx → EReal) (b' : S1x100.Idx → EReal)
    (y : Fin 10000) (n : Fin 100000) (q : Fin 100)
    (hs : ∀ k : Fin 100, s (ix2 y k) = s' (ix2 n k)) (hx : ∀ k : Fin 100, x (ix2 y k) = x' (ix2 n k))
    (hr : r (ix2 y (0 : Fin 1)) = r' (ix2 n (0 : Fin 1)))
    (hA : ∀ k : Fin 100, A (ix2 k q) = A' (ix2 k q)) (hR : ∀ k : Fin 100, R (ix2 k q) = R' (ix2 k q))
    (hb : b (ix2 (0 : Fin 1) q) = b' (ix2 (0 : Fin 1) q)) :
    blockAt s x r A R b y q = rowAt s' x' r' A' R' b' n q := by
  unfold blockAt rowAt
  rw [hb, Finset.sum_congr rfl fun k _ => show (s (ix2 y k) * r (ix2 y (0 : Fin 1))) * A (ix2 k q) = (s' (ix2 n k) * r' (ix2 n (0 : Fin 1))) * A' (ix2 k q) by
      rw [hs k, hr, hA k],
    Finset.sum_congr rfl fun k _ => show x (ix2 y k) * R (ix2 k q) = x' (ix2 n k) * R' (ix2 k q) by rw [hx k, hR k]]

theorem hz : (![0, 0] : Fin 2 → Nat) = fun _ => 0 := funext fun a => by fin_cases a <;> rfl

/-- The node that row `y` of block `t` is. -/
def node (t : Fin 10) (y : Fin 10000) : Fin 100000 := ⟨t.val * 10000 + y.val, by have := t.isLt; have := y.isLt; omega⟩

end Cert.KernelIdeal.RowValue

end
-- ==== Proof.Region0.lean ====
/-
  What the first kernel's grid leaves in its result array, as one function of the arrays the grid starts from.

  The grid has ten points; point `t` works on nodes 10000·t … 10000·t + 9999.  The windows over node arrays (the
  neighbour sums, the own features, the reciprocal-degree column, the result) have block `t` at point `t`; the two
  weight matrices and the one-row bias are single blocks, the same at every point.  So the element `(y, k)` of a node
  block at point `t` is the array's element `(10000·t + y, k)`, and the block a point writes back is the rectified
  block's number of those elements: block `t` of ONE whole-array function, the rectified row function.  The ten
  blocks tile the result array (node `n` lies in block `n / 10000`), so after the grid the result array IS that
  function, whatever the array held before.
-/
import proofs.«126210_j88064009437412_2_alg».proof.Proof.Gen.KernelIdeal.Frame
import proofs.«126210_j88064009437412_2_alg».proof.Proof.Rows

set_option maxRecDepth 16384

noncomputable section

namespace Cert.KernelIdeal.Region0

open Cert.KernelIdeal Cert.KernelIdeal.Gen Cert.KernelIdeal.BlockValue Cert.KernelIdeal.RowValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem index0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem index0_2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem index0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem index0_6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- Row `y`, column `k` of the neighbour sums' block at point `t` is the array's row `node t y`, column `k`. -/
theorem read0_0 (c : Dev nD) (t : Fin cfg0.N) (y : Fin 10000) (k : Fin 100) :
    iblk0 V c 0 t (ix2 y k) = V c main_v22 (ix2 (node t y) k) := by
  show V c main_v22 (((cfg0.win 0).blk t).view.emb (ix2 y k)) = _
  refine congrArg (V c main_v22) (funext fun a => Fin.ext ?_)
  obtain ⟨e0, e1⟩ := index0_0 t
  match a with
  | ⟨0, _⟩ => show win0_0.index t (0 : Fin 2) * 10000 + 1 * y.val = t.val * 10000 + y.val; rw [e0]; omega
  | ⟨1, _⟩ => show win0_0.index t (1 : Fin 2) * 100 + 1 * k.val = k.val; rw [e1]; omega

/-- The same for the own features. -/
theorem read0_1 (c : Dev nD) (t : Fin cfg0.N) (y : Fin 10000) (k : Fin 100) :
    iblk0 V c 1 t (ix2 y k) = V c main_arg0 (ix2 (node t y) k) := by
  show V c main_arg0 (((cfg0.win 1).blk t).view.emb (ix2 y k)) = _
  refine congrArg (V c main_arg0) (funext fun a => Fin.ext ?_)
  obtain ⟨e0, e1⟩ := index0_1 t
  match a with
  | ⟨0, _⟩ => show win0_1.index t (0 : Fin 2) * 10000 + 1 * y.val = t.val * 10000 + y.val; rw [e0]; omega
  | ⟨1, _⟩ => show win0_1.index t (1 : Fin 2) * 100 + 1 * k.val = k.val; rw [e1]; omega

/-- The one entry of row `y` of the reciprocal-degree block is the column's entry of that node. -/
theorem read0_2 (c : Dev nD) (t : Fin cfg0.N) (y : Fin 10000) :
    iblk0 V c 2 t (ix2 y (0 : Fin 1)) = V c main_v12 (ix2 (node t y) (0 : Fin 1)) := by
  show V c main_v12 (((cfg0.win 2).blk t).view.emb (ix2 y (0 : Fin 1))) = _
  refine congrArg (V c main_v12) (funext fun a => Fin.ext ?_)
  obtain ⟨e0, e1⟩ := index0_2 t
  match a with
  | ⟨0, _⟩ => show win0_2.index t (0 : Fin 2) * 10000 + 1 * y.val = t.val * 10000 + y.val; rw [e0]; omega
  | ⟨1, _⟩ => show win0_2.index t (1 : Fin 2) * 1 + 1 * 0 = 0; rw [e1]

/-- A weight matrix is one block: the block's entry is the matrix's. -/
theorem read0_3 (c : Dev nD) (t : Fin cfg0.N) (k q : Fin 100) : iblk0 V c 3 t (ix2 k q) = V c main_arg3 (ix2 k q) := by
  show V c main_arg3 (((cfg0.win 3).blk t).view.emb (ix2 k q)) = _
  refine congrArg (V c main_arg3) (funext fun a => Fin.ext ?_)
  obtain ⟨e0, e1⟩ := index0_3 t
  match a with
  | ⟨0, _⟩ => show win0_3.index t (0 : Fin 2) * 100 + 1 * k.val = k.val; rw [e0]; omega
  | ⟨1, _⟩ => show win0_3.index t (1 : Fin 2) * 100 + 1 * q.val = q.val; rw [e1]; omega

theorem read0_4 (c : Dev nD) (t : Fin cfg0.N) (k q : Fin 100) : iblk0 V c 4 t (ix2 k q) = V c main_arg4 (ix2 k q) := by
  show V c main_arg4 (((cfg0.win 4).blk t).view.emb (ix2 k q)) = _
  refine congrArg (V c main_arg4) (funext fun a => Fin.ext ?_)
  obtain ⟨e0, e1⟩ := index0_4 t
  match a with
  | ⟨0, _⟩ => show win0_4.index t (0 : Fin 2) * 100 + 1 * k.val = k.val; rw [e0]; omega
  | ⟨1, _⟩ => show win0_4.index t (1 : Fin 2) * 100 + 1 * q.val = q.val; rw [e1]; omega

/-- The one-row bias is one block. -/
theorem read0_5 (c : Dev nD) (t : Fin cfg0.N) (q : Fin 100) :
    iblk0 V c 5 t (ix2 (0 : Fin 1) q) = V c main_v23 (ix2 (0 : Fin 1) q) := by
  show V c main_v23 (((cfg0.win 5).blk t).view.emb (ix2 (0 : Fin 1) q)) = _
  refine congrArg (V c main_v23) (funext fun a => Fin.ext ?_)
  obtain ⟨e0, e1⟩ := index0_5 t
  match a with
  | ⟨0, _⟩ => show win0_5.index t (0 : Fin 2) * 1 + 1 * 0 = 0; rw [e0]
  | ⟨1, _⟩ => show win0_5.index t (1 : Fin 2) * 100 + 1 * q.val = q.val; rw [e1]; omega

/-- Row `y`, column `q` of the result's block at point `t` sits at the array's row `node t y`, column `q`. -/
theorem emb0_6 (t : Fin cfg0.N) (y : Fin 10000) (q : Fin 100) :
    ((cfg0.win 6).blk t).view.emb (ix2 y q) = ix2 (node t y) q := by
  refine funext fun a => Fin.ext ?_
  obtain ⟨e0, e1⟩ := index0_6 t
  match a with
  | ⟨0, _⟩ => show win0_6.index t (0 : Fin 2) * 10000 + 1 * y.val = t.val * 10000 + y.val; rw [e0]; omega
  | ⟨1, _⟩ => show win0_6.index t (1 : Fin 2) * 100 + 1 * q.val = q.val; rw [e1]; omega

/-- What point `t` writes back is block `t` of the rectified row function of the arrays the grid starts from. -/
theorem flushed0 (c : Dev nD) (t : Fin cfg0.N) :
    (dat0 V c).flushed 6 t = ((cfg0.win 6).blk t).view.read (Elt Ideal)
      (rowsRectified (V c main_v22) (V c main_arg0) (V c main_v12) (V c main_arg3) (V c main_arg4) (V c main_v23)) := by
  show (cfg0.win 6).cut (grid0.coords t) ((dat0 V c).after 6 t) = _
  rw [after0_6]
  unfold out0_6
  rw [View.canon_unit_zero hz]
  simp only [View.ld_unit_zero (S := S10000x100) hz, View.ld_unit_zero (S := S10000x1) hz,
    View.ld_unit_zero (S := S100x100) hz, View.ld_unit_zero (S := S1x100) hz]
  funext j
  obtain ⟨y, q, rfl⟩ : ∃ (y : Fin 10000) (q : Fin 100), j = ix2 y q := ⟨j 0, j 1, eq_ix2 (n0 := 10000) (n1 := 100) j⟩
  refine (k0_pay1_apply (iblk0 V c 0 t) (iblk0 V c 2 t) (iblk0 V c 3 t) (iblk0 V c 1 t) (iblk0 V c 4 t) (iblk0 V c 5 t) y q).trans ?_
  show _ = rowsRectified (V c main_v22) (V c main_arg0) (V c main_v12) (V c main_arg3) (V c main_arg4) (V c main_v23)
    (((cfg0.win 6).blk t).view.emb (ix2 y q))
  rw [emb0_6]
  show max _ 0 = max (rowAt (V c main_v22) (V c main_arg0) (V c main_v12) (V c main_arg3) (V c main_arg4) (V c main_v23) (node t y) q) 0
  refine congrArg (max · 0) ?_
  exact blockAt_eq_rowAt _ _ _ _ _ _ _ _ _ _ _ _ y (node t y) q (read0_0 V c t y) (read0_1 V c t y) (read0_2 V c t y)
    (fun k => read0_3 V c t k q) (fun k => read0_4 V c t k q) (read0_5 V c t q)

/-- An index of the result array is in point `t`'s block iff each coordinate is in the block's range. -/
theorem mem_blk0 (t : Fin cfg0.N) (i : S100000x100.Idx) :
    i ∈ ((cfg0.win 6).blk t).view.set ↔ ∀ a : Fin 2, win0_6.index t a * S10000x100.size a ≤ (i a).val
      ∧ (i a).val < win0_6.index t a * S10000x100.size a + S10000x100.size a := by
  show i ∈ ((View.whole main_v24).slice (win0_6.rect t)).set ↔ _
  rw [View.set_slice_whole, Rect.mem_set_unit]
  exact Iff.rfl

/-- Every node lies in the block of the point `node / 10000`. -/
theorem cover0 (i : S100000x100.Idx) : ∃ t : Fin cfg0.N, (cfg0.win 6).flush t = true ∧ i ∈ ((cfg0.win 6).blk t).view.set := by
  have hi0 : (i 0).val < 100000 := (i 0).isLt
  have hi1 : (i 1).val < 100 := (i 1).isLt
  have ht : (i 0).val / 10000 < 10 := by omega
  refine ⟨⟨(i 0).val / 10000, ht⟩, flush0_6 _, ?_⟩
  rw [mem_blk0]
  obtain ⟨e0, e1⟩ := index0_6 ⟨(i 0).val / 10000, ht⟩
  intro a
  match a with
  | ⟨0, _⟩ =>
    show win0_6.index ⟨(i 0).val / 10000, ht⟩ (0 : Fin 2) * 10000 ≤ (i 0).val
      ∧ (i 0).val < win0_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_6.index ⟨(i 0).val / 10000, ht⟩ (1 : Fin 2) * 100 ≤ (i 1).val
      ∧ (i 1).val < win0_6.index ⟨(i 0).val / 10000, ht⟩ (1 : Fin 2) * 100 + 100
    rw [e1]; omega

/-- AFTER THE FIRST GRID its result array is the rectified row function of the arrays the grid started from. -/
theorem region0 (c : Dev nD) : (dat0 V c).arrAt 6 cfg0.N
    = rowsRectified (V c main_v22) (V c main_arg0) (V c main_v12) (V c main_arg3) (V c main_arg4) (V c main_v23) :=
  (dat0 V c).arrAt_eq_of_cover 6 _ (fun t _ => flushed0 V c t) cover0

end Cert.KernelIdeal.Region0

end
-- ==== Proof.Region1.lean ====
/-
  What the second kernel's grid leaves in its two result arrays, as functions of the arrays the grid starts from.

  The grid again has ten points over blocks of 10000 nodes.  The neighbour sums of the first stage, the first stage
  itself, the reciprocal-degree column and the two results have block `t` at point `t`; the four weight matrices and
  the two one-row biases are single blocks.  Each result's written-back block is the block's number of the SAME three
  node blocks under that head's two matrices and bias: block `t` of the row function under that head's weights.  The
  ten blocks tile each result array, so after the grid each result array IS its row function.
-/
import proofs.«126210_j88064009437412_2_alg».proof.Proof.Gen.KernelIdeal.Frame
import proofs.«126210_j88064009437412_2_alg».proof.Proof.Rows

set_option maxRecDepth 16384

noncomputable section

namespace Cert.KernelIdeal.Region1

open Cert.KernelIdeal Cert.KernelIdeal.Gen Cert.KernelIdeal.BlockValue Cert.KernelIdeal.RowValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem index1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem index1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem index1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)
theorem index1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem index1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem index1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem index1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem index1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
theorem index1_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)
theorem index1_9 : ∀ t : Fin cfg1.N, win1_9.index t (0 : Fin 2) = t.val ∧ win1_9.index t (1 : Fin 2) = 0 :=
  (by decide +kernel : ∀ t : Fin grid1.N, win1_9.index t (0 : Fin 2) = t.val ∧ win1_9.index t (1 : Fin 2) = 0)
theorem index1_10 : ∀ t : Fin cfg1.N, win1_10.index t (0 : Fin 2) = t.val ∧ win1_10.index t (1 : Fin 2) = 0 :=
  (by decide +kernel : ∀ t : Fin grid1.N, win1_10.index t (0 : Fin 2) = t.val ∧ win1_10.index t (1 : Fin 2) = 0)

/-- Row `y`, column `k` of the neighbour sums' block at point `t` is the array's row `node t y`, column `k`. -/
theorem read1_0 (c : Dev nD) (t : Fin cfg1.N) (y : Fin 10000) (k : Fin 100) :
    iblk1 V c 0 t (ix2 y k) = V c main_v34 (ix2 (node t y) k) := by
  show V c main_v34 (((cfg1.win 0).blk t).view.emb (ix2 y k)) = _
  refine congrArg (V c main_v34) (funext fun a => Fin.ext ?_)
  obtain ⟨e0, e1⟩ := index1_0 t
  match a with
  | ⟨0, _⟩ => show win1_0.index t (0 : Fin 2) * 10000 + 1 * y.val = t.val * 10000 + y.val; rw [e0]; omega
  | ⟨1, _⟩ => show win1_0.index t (1 : Fin 2) * 100 + 1 * k.val = k.val; rw [e1]; omega

/-- The same for the first stage's own rows. -/
theorem read1_1 (c : Dev nD) (t : Fin cfg1.N) (y : Fin 10000) (k : Fin 100) :
    iblk1 V c 1 t (ix2 y k) = V c main_v24 (ix2 (node t y) k) := by
  show V c main_v24 (((cfg1.win 1).blk t).view.emb (ix2 y k)) = _
  refine congrArg (V c main_v24) (funext fun a => Fin.ext ?_)
  obtain ⟨e0, e1⟩ := index1_1 t
  match a with
  | ⟨0, _⟩ => show win1_1.index t (0 : Fin 2) * 10000 + 1 * y.val = t.val * 10000 + y.val; rw [e0]; omega
  | ⟨1, _⟩ => show win1_1.index t (1 : Fin 2) * 100 + 1 * k.val = k.val; rw [e1]; omega

/-- The one entry of row `y` of the reciprocal-degree block is the column's entry of that node. -/
theorem read1_2 (c : Dev nD) (t : Fin cfg1.N) (y : Fin 10000) :
    iblk1 V c 2 t (ix2 y (0 : Fin 1)) = V c main_v12 (ix2 (node t y) (0 : Fin 1)) := by
  show V c main_v12 (((cfg1.win 2).blk t).view.emb (ix2 y (0 : Fin 1))) = _
  refine congrArg (V c main_v12) (funext fun a => Fin.ext ?_)
  obtain ⟨e0, e1⟩ := index1_2 t
  match a with
  | ⟨0, _⟩ => show win1_2.index t (0 : Fin 2) * 10000 + 1 * y.val = t.val * 10000 + y.val; rw [e0]; omega
  | ⟨1, _⟩ => show win1_2.index t (1 : Fin 2) * 1 + 1 * 0 = 0; rw [e1]

/-- A weight matrix is one block: the block's entry is the matrix's. -/
theorem read1_3 (c : Dev nD) (t : Fin cfg1.N) (k q : Fin 100) : iblk1 V c 3 t (ix2 k q) = V c main_arg6 (ix2 k q) := by
  show V c main_arg6 (((cfg1.win 3).blk t).view.emb (ix2 k q)) = _
  refine congrArg (V c main_arg6) (funext fun a => Fin.ext ?_)
  obtain ⟨e0, e1⟩ := index1_3 t
  match a with
  | ⟨0, _⟩ => show win1_3.index t (0 : Fin 2) * 100 + 1 * k.val = k.val; rw [e0]; omega
  | ⟨1, _⟩ => show win1_3.index t (1 : Fin 2) * 100 + 1 * q.val = q.val; rw [e1]; omega

theorem read1_4 (c : Dev nD) (t : Fin cfg1.N) (k q : Fin 100) : iblk1 V c 4 t (ix2 k q) = V c main_arg7 (ix2 k q) := by
  show V c main_arg7 (((cfg1.win 4).blk t).view.emb (ix2 k q)) = _
  refine congrArg (V c main_arg7) (funext fun a => Fin.ext ?_)
  obtain ⟨e0, e1⟩ := index1_4 t
  match a with
  | ⟨0, _⟩ => show win1_4.index t (0 : Fin 2) * 100 + 1 * k.val = k.val; rw [e0]; omega
  | ⟨1, _⟩ => show win1_4.index t (1 : Fin 2) * 100 + 1 * q.val = q.val; rw [e1]; omega

/-- A one-row bias is one block. -/
theorem read1_5 (c : Dev nD) (t : Fin cfg1.N) (q : Fin 100) :
    iblk1 V c 5 t (ix2 (0 : Fin 1) q) = V c main_v35 (ix2 (0 : Fin 1) q) := by
  show V c main_v35 (((cfg1.win 5).blk t).view.emb (ix2 (0 : Fin 1) q)) = _
  refine congrArg (V c main_v35) (funext fun a => Fin.ext ?_)
  obtain ⟨e0, e1⟩ := index1_5 t
  match a with
  | ⟨0, _⟩ => show win1_5.index t (0 : Fin 2) * 1 + 1 * 0 = 0; rw [e0]
  | ⟨1, _⟩ => show win1_5.index t (1 : Fin 2) * 100 + 1 * q.val = q.val; rw [e1]; omega

theorem read1_6 (c : Dev nD) (t : Fin cfg1.N) (k q : Fin 100) : iblk1 V c 6 t (ix2 k q) = V c main_arg9 (ix2 k q) := by
  show V c main_arg9 (((cfg1.win 6).blk t).view.emb (ix2 k q)) = _
  refine congrArg (V c main_arg9) (funext fun a => Fin.ext ?_)
  obtain ⟨e0, e1⟩ := index1_6 t
  match a with
  | ⟨0, _⟩ => show win1_6.index t (0 : Fin 2) * 100 + 1 * k.val = k.val; rw [e0]; omega
  | ⟨1, _⟩ => show win1_6.index t (1 : Fin 2) * 100 + 1 * q.val = q.val; rw [e1]; omega

theorem read1_7 (c : Dev nD) (t : Fin cfg1.N) (k q : Fin 100) : iblk1 V c 7 t (ix2 k q) = V c main_arg10 (ix2 k q) := by
  show V c main_arg10 (((cfg1.win 7).blk t).view.emb (ix2 k q)) = _
  refine congrArg (V c main_arg10) (funext fun a => Fin.ext ?_)
  obtain ⟨e0, e1⟩ := index1_7 t
  match a with
  | ⟨0, _⟩ => show win1_7.index t (0 : Fin 2) * 100 + 1 * k.val = k.val; rw [e0]; omega
  | ⟨1, _⟩ => show win1_7.index t (1 : Fin 2) * 100 + 1 * q.val = q.val; rw [e1]; omega

theorem read1_8 (c : Dev nD) (t : Fin cfg1.N) (q : Fin 100) :
    iblk1 V c 8 t (ix2 (0 : Fin 1) q) = V c main_v36 (ix2 (0 : Fin 1) q) := by
  show V c main_v36 (((cfg1.win 8).blk t).view.emb (ix2 (0 : Fin 1) q)) = _
  refine congrArg (V c main_v36) (funext fun a => Fin.ext ?_)
  obtain ⟨e0, e1⟩ := index1_8 t
  match a with
  | ⟨0, _⟩ => show win1_8.index t (0 : Fin 2) * 1 + 1 * 0 = 0; rw [e0]
  | ⟨1, _⟩ => show win1_8.index t (1 : Fin 2) * 100 + 1 * q.val = q.val; rw [e1]; omega

/-- Row `y`, column `q` of a result's block at point `t` sits at the array's row `node t y`, column `q`. -/
theorem emb1_9 (t : Fin cfg1.N) (y : Fin 10000) (q : Fin 100) :
    ((cfg1.win 9).blk t).view.emb (ix2 y q) = ix2 (node t y) q := by
  refine funext fun a => Fin.ext ?_
  obtain ⟨e0, e1⟩ := index1_9 t
  match a with
  | ⟨0, _⟩ => show win1_9.index t (0 : Fin 2) * 10000 + 1 * y.val = t.val * 10000 + y.val; rw [e0]; omega
  | ⟨1, _⟩ => show win1_9.index t (1 : Fin 2) * 100 + 1 * q.val = q.val; rw [e1]; omega

theorem emb1_10 (t : Fin cfg1.N) (y : Fin 10000) (q : Fin 100) :
    ((cfg1.win 10).blk t).view.emb (ix2 y q) = ix2 (node t y) q := by
  refine funext fun a => Fin.ext ?_
  obtain ⟨e0, e1⟩ := index1_10 t
  match a with
  | ⟨0, _⟩ => show win1_10.index t (0 : Fin 2) * 10000 + 1 * y.val = t.val * 10000 + y.val; rw [e0]; omega
  | ⟨1, _⟩ => show win1_10.index t (1 : Fin 2) * 100 + 1 * q.val = q.val; rw [e1]; omega

/-- What point `t` writes back into this result is block `t` of the row function under this head's weights. -/
theorem flushed1_9 (c : Dev nD) (t : Fin cfg1.N) :
    (dat1 V c).flushed 9 t = ((cfg1.win 9).blk t).view.read (Elt Ideal)
      (rows (V c main_v34) (V c main_v24) (V c main_v12) (V c main_arg6) (V c main_arg7) (V c main_v35)) := by
  show (cfg1.win 9).cut (grid1.coords t) ((dat1 V c).after 9 t) = _
  rw [after1_9]
  unfold out1_9
  rw [View.canon_unit_zero hz]
  simp only [View.ld_unit_zero (S := S10000x100) hz, View.ld_unit_zero (S := S10000x1) hz,
    View.ld_unit_zero (S := S100x100) hz, View.ld_unit_zero (S := S1x100) hz]
  funext j
  obtain ⟨y, q, rfl⟩ : ∃ (y : Fin 10000) (q : Fin 100), j = ix2 y q := ⟨j 0, j 1, eq_ix2 (n0 := 10000) (n1 := 100) j⟩
  refine (k1_pay3_apply (iblk1 V c 0 t) (iblk1 V c 2 t) (iblk1 V c 1 t) (iblk1 V c 3 t) (iblk1 V c 4 t) (iblk1 V c 5 t) y q).trans ?_
  show _ = rows (V c main_v34) (V c main_v24) (V c main_v12) (V c main_arg6) (V c main_arg7) (V c main_v35)
    (((cfg1.win 9).blk t).view.emb (ix2 y q))
  rw [emb1_9]
  show _ = rowAt (V c main_v34) (V c main_v24) (V c main_v12) (V c main_arg6) (V c main_arg7) (V c main_v35) (node t y) q
  exact blockAt_eq_rowAt _ _ _ _ _ _ _ _ _ _ _ _ y (node t y) q (read1_0 V c t y) (read1_1 V c t y) (read1_2 V c t y)
    (fun k => read1_3 V c t k q) (fun k => read1_4 V c t k q) (read1_5 V c t q)

theorem mem_blk1_9 (t : Fin cfg1.N) (i : S100000x100.Idx) :
    i ∈ ((cfg1.win 9).blk t).view.set ↔ ∀ a : Fin 2, win1_9.index t a * S10000x100.size a ≤ (i a).val
      ∧ (i a).val < win1_9.index t a * S10000x100.size a + S10000x100.size a := by
  show i ∈ ((View.whole main_v37_0).slice (win1_9.rect t)).set ↔ _
  rw [View.set_slice_whole, Rect.mem_set_unit]
  exact Iff.rfl

theorem cover1_9' (i : S100000x100.Idx) : ∃ t : Fin cfg1.N, (cfg1.win 9).flush t = true ∧ i ∈ ((cfg1.win 9).blk t).view.set := by
  have hi0 : (i 0).val < 100000 := (i 0).isLt
  have hi1 : (i 1).val < 100 := (i 1).isLt
  have ht : (i 0).val / 10000 < 10 := by omega
  refine ⟨⟨(i 0).val / 10000, ht⟩, flush1_9 _, ?_⟩
  rw [mem_blk1_9]
  obtain ⟨e0, e1⟩ := index1_9 ⟨(i 0).val / 10000, ht⟩
  intro a
  match a with
  | ⟨0, _⟩ =>
    show win1_9.index ⟨(i 0).val / 10000, ht⟩ (0 : Fin 2) * 10000 ≤ (i 0).val
      ∧ (i 0).val < win1_9.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_9.index ⟨(i 0).val / 10000, ht⟩ (1 : Fin 2) * 100 ≤ (i 1).val
      ∧ (i 1).val < win1_9.index ⟨(i 0).val / 10000, ht⟩ (1 : Fin 2) * 100 + 100
    rw [e1]; omega

/-- AFTER THE SECOND GRID this result array is the row function, under this head's weights, of the arrays the grid
    started from. -/
theorem region1_9 (c : Dev nD) : (dat1 V c).arrAt 9 cfg1.N
    = rows (V c main_v34) (V c main_v24) (V c main_v12) (V c main_arg6) (V c main_arg7) (V c main_v35) :=
  (dat1 V c).arrAt_eq_of_cover 9 _ (fun t _ => flushed1_9 V c t) cover1_9'

/-- What point `t` writes back into this result is block `t` of the row function under this head's weights. -/
theorem flushed1_10 (c : Dev nD) (t : Fin cfg1.N) :
    (dat1 V c).flushed 10 t = ((cfg1.win 10).blk t).view.read (Elt Ideal)
      (rows (V c main_v34) (V c main_v24) (V c main_v12) (V c main_arg9) (V c main_arg10) (V c main_v36)) := by
  show (cfg1.win 10).cut (grid1.coords t) ((dat1 V c).after 10 t) = _
  rw [after1_10]
  unfold out1_10
  rw [View.canon_unit_zero hz]
  simp only [View.ld_unit_zero (S := S10000x100) hz, View.ld_unit_zero (S := S10000x1) hz,
    View.ld_unit_zero (S := S100x100) hz, View.ld_unit_zero (S := S1x100) hz]
  funext j
  obtain ⟨y, q, rfl⟩ : ∃ (y : Fin 10000) (q : Fin 100), j = ix2 y q := ⟨j 0, j 1, eq_ix2 (n0 := 10000) (n1 := 100) j⟩
  refine (k1_pay4_apply (iblk1 V c 0 t) (iblk1 V c 2 t) (iblk1 V c 1 t) (iblk1 V c 6 t) (iblk1 V c 7 t) (iblk1 V c 8 t) y q).trans ?_
  show _ = rows (V c main_v34) (V c main_v24) (V c main_v12) (V c main_arg9) (V c main_arg10) (V c main_v36)
    (((cfg1.win 10).blk t).view.emb (ix2 y q))
  rw [emb1_10]
  show _ = rowAt (V c main_v34) (V c main_v24) (V c main_v12) (V c main_arg9) (V c main_arg10) (V c main_v36) (node t y) q
  exact blockAt_eq_rowAt _ _ _ _ _ _ _ _ _ _ _ _ y (node t y) q (read1_0 V c t y) (read1_1 V c t y) (read1_2 V c t y)
    (fun k => read1_6 V c t k q) (fun k => read1_7 V c t k q) (read1_8 V c t q)

theorem mem_blk1_10 (t : Fin cfg1.N) (i : S100000x100.Idx) :
    i ∈ ((cfg1.win 10).blk t).view.set ↔ ∀ a : Fin 2, win1_10.index t a * S10000x100.size a ≤ (i a).val
      ∧ (i a).val < win1_10.index t a * S10000x100.size a + S10000x100.size a := by
  show i ∈ ((View.whole main_v37_1).slice (win1_10.rect t)).set ↔ _
  rw [View.set_slice_whole, Rect.mem_set_unit]
  exact Iff.rfl

theorem cover1_10' (i : S100000x100.Idx) : ∃ t : Fin cfg1.N, (cfg1.win 10).flush t = true ∧ i ∈ ((cfg1.win 10).blk t).view.set := by
  have hi0 : (i 0).val < 100000 := (i 0).isLt
  have hi1 : (i 1).val < 100 := (i 1).isLt
  have ht : (i 0).val / 10000 < 10 := by omega
  refine ⟨⟨(i 0).val / 10000, ht⟩, flush1_10 _, ?_⟩
  rw [mem_blk1_10]
  obtain ⟨e0, e1⟩ := index1_10 ⟨(i 0).val / 10000, ht⟩
  intro a
  match a with
  | ⟨0, _⟩ =>
    show win1_10.index ⟨(i 0).val / 10000, ht⟩ (0 : Fin 2) * 10000 ≤ (i 0).val
      ∧ (i 0).val < win1_10.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_10.index ⟨(i 0).val / 10000, ht⟩ (1 : Fin 2) * 100 ≤ (i 1).val
      ∧ (i 1).val < win1_10.index ⟨(i 0).val / 10000, ht⟩ (1 : Fin 2) * 100 + 100
    rw [e1]; omega

/-- AFTER THE SECOND GRID this result array is the row function, under this head's weights, of the arrays the grid
    started from. -/
theorem region1_10 (c : Dev nD) : (dat1 V c).arrAt 10 cfg1.N
    = rows (V c main_v34) (V c main_v24) (V c main_v12) (V c main_arg9) (V c main_arg10) (V c main_v36) :=
  (dat1 V c).arrAt_eq_of_cover 10 _ (fun t _ => flushed1_10 V c t) cover1_10'

end Cert.KernelIdeal.Region1

end
-- ==== Proof.LibRecip.lean ====
/-
  Multiplying by a reciprocal against dividing, over the extended reals.

  A program that carries `1 / d` and multiplies agrees with one that divides by `d` as soon as `d` is not zero: off
  zero a quotient `a / d` is `a · d⁻¹`, and `1 / d` is `1 · d⁻¹ = d⁻¹`, at the infinities too (`(±∞)⁻¹ = 0`).  A
  divisor that is a maximum with one (a clamped count) is at least one, hence not zero.  No finiteness is needed.
-/
import Idealize.ShloMosaic.PureOps.Ideal

noncomputable section

namespace Cert.LibRecip

open Idealize.ShloMosaic

/-- The single-precision pattern of one denotes the number one. -/
theorem one_f32 : Ideal.ofBits .f32 0x3F800000#32 = 1 := by
  simp [Ideal.ofBits, Ideal.ieee, -EReal.coe_mul]; norm_num

/-- Multiplying by the reciprocal of a nonzero extended real is dividing by it. -/
theorem mul_recip_of_ne_zero (a d : EReal) (hne : d ≠ 0) : a * Ideal.div 1 d = Ideal.div a d := by
  rw [Ideal.div, if_neg hne, Ideal.div, if_neg hne, one_mul]

/-- Multiplying by the reciprocal of a number that is at least one is dividing by it, on every extended real. -/
theorem mul_recip (a d : EReal) (hd : 1 ≤ d) : a * Ideal.div 1 d = Ideal.div a d :=
  mul_recip_of_ne_zero a d fun h => by rw [h] at hd; exact absurd hd (by norm_num)

end Cert.LibRecip

end
-- ==== Proof.Layer.lean ====
/-
  One message-passing layer with mean aggregation, entry by entry over the extended reals.

  For a node p and an output feature q the layer's value is

      (∑ k, (s (p, k) / d p) · A (k, q))  +  (∑ k, x (p, k) · R (k, q))  +  b q

  where s is the sum of the neighbours' feature rows, d the node's clamped degree (at least one), x the node's own
  features, A and R the two weight matrices and b the bias.  A program may instead carry the reciprocal 1 / d and
  multiply: the two agree on every extended real as soon as d is at least one, because a quotient by a nonzero
  extended real is the product with its inverse, and 1 / d is that inverse (`LibRecip.lean`).  No finiteness is needed.
-/
import Idealize.ShloMosaic.PureOps.Ideal
import Idealize.ShloMosaic.Lib.ValueIdx
import proofs.«126210_j88064009437412_2_alg».proof.Proof.LibRecip

noncomputable section

namespace Cert.Sage

open Idealize.ShloMosaic Idealize.ShloMosaic.ValueIdx

/-- Node features: 100000 nodes, 100 features each. -/
abbrev Nodes : Shape := ⟨2, ![100000, 100]⟩
/-- A weight matrix. -/
abbrev Weights : Shape := ⟨2, ![100, 100]⟩
/-- One number per node. -/
abbrev PerNode : Shape := ⟨1, ![100000]⟩
/-- A bias vector. -/
abbrev Bias : Shape := ⟨1, ![100]⟩

/-- The layer's value at node `p`, feature `q`. -/
def layerAt (s x : Nodes.Idx → EReal) (d : PerNode.Idx → EReal) (A R : Weights.Idx → EReal) (b : Bias.Idx → EReal)
    (p : Fin 100000) (q : Fin 100) : EReal :=
  (∑ k : Fin 100, Ideal.div (s (ix2 p k)) (d (ix1 p)) * A (ix2 k q)) + (∑ k : Fin 100, x (ix2 p k) * R (ix2 k q)) + b (ix1 q)

/-- The layer as one array. -/
def layer (s x : Nodes.Idx → EReal) (d : PerNode.Idx → EReal) (A R : Weights.Idx → EReal) (b : Bias.Idx → EReal) :
    Nodes.Idx → EReal := fun j => layerAt s x d A R b (j 0) (j 1)

theorem layer_ix2 (s x : Nodes.Idx → EReal) (d : PerNode.Idx → EReal) (A R : Weights.Idx → EReal) (b : Bias.Idx → EReal)
    (p : Fin 100000) (q : Fin 100) : layer s x d A R b (ix2 p q) = layerAt s x d A R b p q := rfl

/-- The rectifier, entry by entry. -/
def rectify (f : Nodes.Idx → EReal) : Nodes.Idx → EReal := fun j => max (f j) 0

end Cert.Sage

end
-- ==== Proof.RefLayer.lean ====
/-
  The reference program read as two layers.

  The reference computes, three times over, the same whole-array expression: the neighbour sums divided row by row
  by the clamped degree, multiplied into one weight matrix; the node's own features multiplied into another; the
  bias added to every row.  Read at a node `p` and a feature `q` that expression is the layer of `Layer.lean`:
  a general matrix product's entry is the sum over the shared coordinate, the degree spread over a row reads the
  node's degree at every feature, and the bias spread over the rows reads the feature's bias at every node.
  The first result is the rectified layer of the inputs; the two outputs are the layer of that result under the
  two heads' weights.  The neighbour sum and the clamped degree stay unopened: they are whatever the gather and the
  accumulating scatter of the edge list compute.
-/
import proofs.«126210_j88064009437412_2_alg».proof.Proof.Gen.ReferenceIdeal.Read
import proofs.«126210_j88064009437412_2_alg».proof.Proof.Layer
import proofs.«126210_j88064009437412_2_alg».proof.Proof.LibProduct

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Cert.Sage Cert.LibRecip

/-- A number per node spread over the node's hundred features. -/
def spread (d : FVec Ideal S100000 .f32) : FVec Ideal S100000x100 .f32 :=
  broadcastInDim S100000x100 ![0, 1] bcast_S100000x1_S100000x100_0_1 (broadcastInDim S100000x1 ![0] bcast_S100000_S100000x1_0 d)

/-- Spread over a row, the number reads the same at every feature. -/
theorem spread_apply (d : FVec Ideal S100000 .f32) (p : Fin 100000) (k : Fin 100) :
    spread d (ix2 p k) = d (ix1 p) := by
  unfold spread
  refine (broadcastInDim_apply _ bcast_S100000x1_S100000x100_0_1 _ (ix2 p k) (ix2 p (0 : Fin 1)) (fun a => match a with
    | ⟨0, _⟩ => by show p.val = if (100000 : Nat) = 1 then 0 else p.val; rw [if_neg (by decide)]
    | ⟨1, _⟩ => by show 0 = if (1 : Nat) = 1 then 0 else k.val; rw [if_pos rfl])).trans ?_
  exact broadcastInDim_apply _ bcast_S100000_S100000x1_0 d (ix2 p (0 : Fin 1)) (ix1 p) (fun a => match a with
    | ⟨0, _⟩ => by show p.val = if (100000 : Nat) = 1 then 0 else p.val; rw [if_neg (by decide)])

/-- A bias vector repeated on every row. -/
def biasRows (b : FVec Ideal S100 .f32) : FVec Ideal S100000x100 .f32 :=
  broadcastInDim S100000x100 ![0, 1] bcast_S1x100_S100000x100_0_1 (broadcastInDim S1x100 ![1] bcast_S100_S1x100_1 b)

/-- On every row the repeated bias reads the feature's bias. -/
theorem biasRows_apply (b : FVec Ideal S100 .f32) (p : Fin 100000) (q : Fin 100) :
    biasRows b (ix2 p q) = b (ix1 q) := by
  unfold biasRows
  refine (broadcastInDim_apply _ bcast_S1x100_S100000x100_0_1 _ (ix2 p q) (ix2 (0 : Fin 1) q) (fun a => match a with
    | ⟨0, _⟩ => by show 0 = if (1 : Nat) = 1 then 0 else p.val; rw [if_pos rfl]
    | ⟨1, _⟩ => by show q.val = if (100 : Nat) = 1 then 0 else q.val; rw [if_neg (by decide)])).trans ?_
  exact broadcastInDim_apply _ bcast_S100_S1x100_1 b (ix2 (0 : Fin 1) q) (ix1 q) (fun a => match a with
    | ⟨0, _⟩ => by show q.val = if (100 : Nat) = 1 then 0 else q.val; rw [if_neg (by decide)])

/-- The reference's layer as it writes it: whole-array operations. -/
def refLayer (s x : FVec Ideal S100000x100 .f32) (d : FVec Ideal S100000 .f32)
    (A R : FVec Ideal S100x100 .f32) (b : FVec Ideal S100 .f32) :
    FVec Ideal S100000x100 .f32 :=
  addf (F := Ideal) (addf (F := Ideal) (Host.dotGeneral (F := Ideal) dot_S100000x100_S100x100_S100000x100_1_0_0_1_n_n none (Host.divf (F := Ideal) s (spread d)) A)
      (Host.dotGeneral (F := Ideal) dot_S100000x100_S100x100_S100000x100_1_0_0_1_n_n none x R)) (biasRows b)

/-- Entry by entry the reference's layer is the layer. -/
theorem refLayer_eq (s x : FVec Ideal S100000x100 .f32) (d : FVec Ideal S100000 .f32)
    (A R : FVec Ideal S100x100 .f32) (b : FVec Ideal S100 .f32) :
    refLayer s x d A R b = layer s x d A R b := by
  funext j
  obtain ⟨p, q, rfl⟩ : ∃ (p : Fin 100000) (q : Fin 100), j = ix2 p q := ⟨j 0, j 1, eq_ix2 j⟩
  rw [layer_ix2]
  unfold refLayer layerAt
  show (Host.dotGeneral (F := Ideal) dot_S100000x100_S100x100_S100000x100_1_0_0_1_n_n none (Host.divf (F := Ideal) s (spread d)) A (ix2 p q)
      + Host.dotGeneral (F := Ideal) dot_S100000x100_S100x100_S100000x100_1_0_0_1_n_n none x R (ix2 p q)) + biasRows b (ix2 p q) = _
  rw [Cert.LibProduct.dotGeneral_apply dot_S100000x100_S100x100_S100000x100_1_0_0_1_n_n rfl rfl rfl rfl rfl rfl,
    Cert.LibProduct.dotGeneral_apply dot_S100000x100_S100x100_S100000x100_1_0_0_1_n_n rfl rfl rfl rfl rfl rfl, biasRows_apply]
  refine congrArg (· + b (ix1 q)) (congrArg (· + ∑ k : Fin 100, x (ix2 p k) * R (ix2 k q)) ?_)
  refine Finset.sum_congr rfl fun k _ => ?_
  show Ideal.div (s (ix2 p k)) (spread d (ix2 p k)) * A (ix2 k q) = _
  rw [spread_apply]

/-! ## The reference's stages

Each stage below is an equation between whole arrays, never read at an index, so that nothing is unfolded past the
stage's own definition. -/

/-- The sum over each node's incoming edges of the source node's feature row, as the reference computes it: a gather of
    rows by the edge list's sources and an accumulating scatter by its targets.  Never opened. -/
def nbrSum (f : FVec Ideal S100000x100 .f32) (e : (⟨S2x1600000, .i32⟩ : BufTy).Contents (Elt Ideal)) : FVec Ideal S100000x100 .f32 :=
  Host.scatterAdd scatter_S100000x100_S1600000x1_S1600000x100_1_0_0_1 (val_main_v15 (F := Ideal)) (val_main_v16 (F := Ideal) e)
    (Host.gather gather_S100000x100_S1600000x1_S1600000x100_1_0_n_n_0_1_1100 f (val_main_v13 (F := Ideal) e))

/-- The number of incoming edges of each node, raised to at least one.  Never opened beyond its outer maximum. -/
def clampedDeg (e : (⟨S2x1600000, .i32⟩ : BufTy).Contents (Elt Ideal)) : FVec Ideal S100000 .f32 := val_main_v19 (F := Ideal) e

/-- The reference forms the neighbour sums of the inputs, and twice those of the first stage: always the same way. -/
theorem nbr17 (x0 : FVec Ideal S100000x100 .f32) (x1 : (⟨S2x1600000, .i32⟩ : BufTy).Contents (Elt Ideal)) : val_main_v17 (F := Ideal) x0 x1 = nbrSum x0 x1 := rfl
theorem nbr43 (x0 : FVec Ideal S100000x100 .f32) (x1 : (⟨S2x1600000, .i32⟩ : BufTy).Contents (Elt Ideal)) (x3 x4 : FVec Ideal S100x100 .f32) (x5 : FVec Ideal S100 .f32) :
    val_main_v43 (F := Ideal) x0 x1 x3 x4 x5 = nbrSum (val_main_v29 (F := Ideal) x0 x1 x3 x4 x5) x1 := rfl
theorem nbr68 (x0 : FVec Ideal S100000x100 .f32) (x1 : (⟨S2x1600000, .i32⟩ : BufTy).Contents (Elt Ideal)) (x3 x4 : FVec Ideal S100x100 .f32) (x5 : FVec Ideal S100 .f32) :
    val_main_v68 (F := Ideal) x0 x1 x3 x4 x5 = nbrSum (val_main_v29 (F := Ideal) x0 x1 x3 x4 x5) x1 := rfl

/-- It forms the clamped degree three times: always the same way. -/
theorem deg45 (x1 : (⟨S2x1600000, .i32⟩ : BufTy).Contents (Elt Ideal)) : val_main_v45 (F := Ideal) x1 = clampedDeg x1 := rfl
theorem deg70 (x1 : (⟨S2x1600000, .i32⟩ : BufTy).Contents (Elt Ideal)) : val_main_v70 (F := Ideal) x1 = clampedDeg x1 := rfl

/-- Each of its three sums of two products and a bias is the whole-array layer of its operands. -/
theorem stage28 (x0 : FVec Ideal S100000x100 .f32) (x1 : (⟨S2x1600000, .i32⟩ : BufTy).Contents (Elt Ideal)) (x3 x4 : FVec Ideal S100x100 .f32) (x5 : FVec Ideal S100 .f32) :
    val_main_v28 (F := Ideal) x0 x1 x3 x4 x5
      = refLayer (val_main_v17 (F := Ideal) x0 x1) x0 (val_main_v19 (F := Ideal) x1) x3 x4 x5 := rfl
theorem stage54 (x0 : FVec Ideal S100000x100 .f32) (x1 : (⟨S2x1600000, .i32⟩ : BufTy).Contents (Elt Ideal)) (x3 x4 : FVec Ideal S100x100 .f32) (x5 : FVec Ideal S100 .f32) (x6 x7 : FVec Ideal S100x100 .f32) (x8 : FVec Ideal S100 .f32) :
    val_main_v54 (F := Ideal) x0 x1 x3 x4 x5 x6 x7 x8
      = refLayer (val_main_v43 (F := Ideal) x0 x1 x3 x4 x5) (val_main_v29 (F := Ideal) x0 x1 x3 x4 x5) (val_main_v45 (F := Ideal) x1) x6 x7 x8 := rfl
theorem stage79 (x0 : FVec Ideal S100000x100 .f32) (x1 : (⟨S2x1600000, .i32⟩ : BufTy).Contents (Elt Ideal)) (x3 x4 : FVec Ideal S100x100 .f32) (x5 : FVec Ideal S100 .f32) (x9 x10 : FVec Ideal S100x100 .f32) (x11 : FVec Ideal S100 .f32) :
    val_main_v79 (F := Ideal) x0 x1 x3 x4 x5 x9 x10 x11
      = refLayer (val_main_v68 (F := Ideal) x0 x1 x3 x4 x5) (val_main_v29 (F := Ideal) x0 x1 x3 x4 x5) (val_main_v70 (F := Ideal) x1) x9 x10 x11 := rfl

/-- The rectifier the reference calls is the maximum with the zero array. -/
theorem rectified (f : FVec Ideal S100000x100 .f32) : maximumf (F := Ideal) f (val_main_call0_v0 (F := Ideal)) = rectify f := by
  funext j
  have h : maximumf (F := Ideal) f (val_main_call0_v0 (F := Ideal)) j
      = FloatOps.maximumf (f j) (val_main_call0_v0 (F := Ideal) j) := rfl
  rw [h, Ideal.maximumf_def, val_main_call0_v0_apply, val_main_call0_cst_apply, Ideal.ofBits_def, Ideal.ofBits_zero_f32]
  rfl

/-- The first stage: the rectified layer of the inputs. -/
theorem feat_eq (x0 : FVec Ideal S100000x100 .f32) (x1 : (⟨S2x1600000, .i32⟩ : BufTy).Contents (Elt Ideal)) (x3 x4 : FVec Ideal S100x100 .f32) (x5 : FVec Ideal S100 .f32) :
    val_main_v29 (F := Ideal) x0 x1 x3 x4 x5 = rectify (layer (nbrSum x0 x1) x0 (clampedDeg x1) x3 x4 x5) := by
  have h : val_main_v29 (F := Ideal) x0 x1 x3 x4 x5
      = maximumf (F := Ideal) (val_main_v28 (F := Ideal) x0 x1 x3 x4 x5) (val_main_call0_v0 (F := Ideal)) := rfl
  rw [h, rectified, stage28, refLayer_eq, nbr17]
  rfl

/-- The first output: the layer of the first stage under the first head's weights. -/
theorem mu_eq (x0 : FVec Ideal S100000x100 .f32) (x1 : (⟨S2x1600000, .i32⟩ : BufTy).Contents (Elt Ideal)) (x3 x4 : FVec Ideal S100x100 .f32) (x5 : FVec Ideal S100 .f32) (x6 x7 : FVec Ideal S100x100 .f32) (x8 : FVec Ideal S100 .f32) :
    val_main_v54 (F := Ideal) x0 x1 x3 x4 x5 x6 x7 x8
      = layer (nbrSum (val_main_v29 (F := Ideal) x0 x1 x3 x4 x5) x1) (val_main_v29 (F := Ideal) x0 x1 x3 x4 x5) (clampedDeg x1) x6 x7 x8 := by
  rw [stage54, refLayer_eq, nbr43, deg45]

/-- The second output: the same under the second head's weights. -/
theorem var_eq (x0 : FVec Ideal S100000x100 .f32) (x1 : (⟨S2x1600000, .i32⟩ : BufTy).Contents (Elt Ideal)) (x3 x4 : FVec Ideal S100x100 .f32) (x5 : FVec Ideal S100 .f32) (x9 x10 : FVec Ideal S100x100 .f32) (x11 : FVec Ideal S100 .f32) :
    val_main_v79 (F := Ideal) x0 x1 x3 x4 x5 x9 x10 x11
      = layer (nbrSum (val_main_v29 (F := Ideal) x0 x1 x3 x4 x5) x1) (val_main_v29 (F := Ideal) x0 x1 x3 x4 x5) (clampedDeg x1) x9 x10 x11 := by
  rw [stage79, refLayer_eq, nbr68, deg70]

/-- The clamped degree is at least one at every node: it is a maximum with one. -/
theorem one_le_clampedDeg (e : (⟨S2x1600000, .i32⟩ : BufTy).Contents (Elt Ideal)) (p : Fin 100000) : 1 ≤ clampedDeg e (ix1 p) := by
  have h : clampedDeg e (ix1 p)
      = FloatOps.maximumf (val_main_v7 (F := Ideal) e (ix1 p)) (val_main_v18 (F := Ideal) (ix1 p)) := val_main_v19_apply e (ix1 p)
  rw [h]
  generalize val_main_v7 (F := Ideal) e (ix1 p) = a
  rw [Ideal.maximumf_def, val_main_v18_apply, val_main_cst_3_apply, Ideal.ofBits_def, one_f32]
  exact le_max_right a 1

end Cert.ReferenceIdeal.RefValue

end
-- ==== Proof.Fold.lean ====
/-
  The kernel program's two results as layers of the inputs.

  The program's buffers are a fold: host operations, the first grid's write-backs, host operations, the second grid's
  write-backs.  Read through that fold:

  * before the first grid the host operations have formed the neighbour sums of the inputs, the reciprocal of the clamped
    degree as a column, and the first bias as a one-row array; the inputs themselves are untouched;
  * so the first grid's result, the rectified row function of those arrays, is the rectified layer of the inputs: at a
    node whose clamped degree is `d`, the column's entry is `1 / d`, and `s · (1 / d) = s / d` because `d` is at
    least one;
  * between the grids the host operations form the neighbour sums of that first stage, from the same edge list, and
    the two heads' biases as one-row arrays; the reciprocal column and the first stage are untouched;
  * so each of the second grid's results is the layer of the first stage under that head's weights.

  The neighbour sum and the clamped degree are the SAME whole-array functions the reference program applies: the two
  programs print the same gather, the same accumulating scatter and the same maximum, so the equations below between
  the kernel program's host values and those functions are by unfolding the names.
-/
import proofs.«126210_j88064009437412_2_alg».proof.Proof.Gen.KernelIdeal.Frame
import proofs.«126210_j88064009437412_2_alg».proof.Proof.Region0
import proofs.«126210_j88064009437412_2_alg».proof.Proof.Region1
import proofs.«126210_j88064009437412_2_alg».proof.Proof.RefLayer
import Idealize.ShloMosaic.Lib.ValueLayout
import Idealize.ShloMosaic.Lib.StableHlo.Run

set_option maxRecDepth 16384

noncomputable section

namespace Cert.KernelIdeal.FoldValue

open Cert.KernelIdeal Cert.KernelIdeal.Gen Cert.KernelIdeal.RowValue
open Idealize.ShloMosaic Idealize.ShloMosaic.TcCoe Idealize.ShloMosaic.ValueIdx Idealize.SL.Sem Idealize.ShloMosaic.StableHlo
open Cert.Sage Cert.LibRecip
open Cert.ReferenceIdeal.RefValue (nbrSum clampedDeg one_le_clampedDeg)

/-- The row function with a reciprocal column and a one-row bias is the layer, at a node whose column entry is the
    reciprocal of a degree that is at least one. -/
theorem rowAt_eq_layerAt (s x s' x' : S100000x100.Idx → EReal) (r : S100000x1.Idx → EReal) (d : PerNode.Idx → EReal)
    (A R A' R' : S100x100.Idx → EReal) (b1 : S1x100.Idx → EReal) (b : Bias.Idx → EReal) (n : Fin 100000) (q : Fin 100)
    (hs : s = s') (hx : x = x') (hr : r (ix2 n (0 : Fin 1)) = Ideal.div 1 (d (ix1 n))) (hd : 1 ≤ d (ix1 n))
    (hA : A = A') (hR : R = R') (hb : b1 (ix2 (0 : Fin 1) q) = b (ix1 q)) :
    rowAt s x r A R b1 n q = layerAt s' x' d A' R' b n q := by
  subst hs hx hA hR
  unfold rowAt layerAt
  rw [hb, hr]
  refine congrArg (· + b (ix1 q)) (congrArg (· + ∑ k : Fin 100, x (ix2 n k) * R (ix2 k q)) (Finset.sum_congr rfl fun k _ => ?_))
  rw [mul_recip _ _ hd]

/-- A quotient of two per-node arrays, at a node, is the quotient of their entries. -/
theorem divf_apply (a b : FVec Ideal S100000 .f32) (i : S100000.Idx) : Host.divf (F := Ideal) a b i = Ideal.div (a i) (b i) := rfl

variable (m : (ℓ : Loc nD τ sig) → Buf (Elt Ideal) ℓ) (ρ : Dev nD → PrngReg)

/-! ## What the first grid starts from -/

/-- The neighbour sums of the inputs. -/
theorem V1_v22 (c : Dev nD) : V1 m ρ c main_v22 = nbrSum (m ((c : Thread nD τ).loc main_arg0)) (m ((c : Thread nD τ).loc main_arg1)) := by
  show StableHlo.after hostOps0 (W0 m ρ c) (Proc.devRef .tc main_v22) = _
  after_results_simp
  rfl

/-- The reciprocal of the clamped degree, as a column. -/
theorem V1_v12 (c : Dev nD) (n : Fin 100000) :
    V1 m ρ c main_v12 (ix2 n (0 : Fin 1)) = Ideal.div 1 (clampedDeg (m ((c : Thread nD τ).loc main_arg1)) (ix1 n)) := by
  have h : V1 m ρ c main_v12 = shapeCast S100000x1 (Host.divf (F := Ideal) (Cert.ReferenceIdeal.Read.val_main_v18 (F := Ideal))
      (clampedDeg (m ((c : Thread nD τ).loc main_arg1)))) shapeCasts_S100000_S100000x1 := by
    show StableHlo.after hostOps0 (W0 m ρ c) (Proc.devRef .tc main_v12) = _
    after_results_simp
    rfl
  rw [h]
  refine (Cert.LibColumn.shapeCast_a_a1_apply _ shapeCasts_S100000_S100000x1 n 0).trans ?_
  rw [divf_apply, Cert.ReferenceIdeal.Read.val_main_v18_apply, Cert.ReferenceIdeal.Read.val_main_cst_3_apply, Ideal.ofBits_def, one_f32]

/-- The first bias as a one-row array. -/
theorem V1_v23 (c : Dev nD) (q : Fin 100) : V1 m ρ c main_v23 (ix2 (0 : Fin 1) q) = m ((c : Thread nD τ).loc main_arg5) (ix1 q) := by
  have h : V1 m ρ c main_v23 = shapeCast S1x100 (m ((c : Thread nD τ).loc main_arg5)) shapeCasts_S100_S1x100 := by
    show StableHlo.after hostOps0 (W0 m ρ c) (Proc.devRef .tc main_v23) = _
    after_results_simp
    rfl
  rw [h]
  exact shapeCast_a_1a_apply _ shapeCasts_S100_S1x100 0 q

/-- The inputs the first grid reads directly are as launched. -/
theorem V1_arg0 (c : Dev nD) : V1 m ρ c main_arg0 = m ((c : Thread nD τ).loc main_arg0) := by
  show StableHlo.after hostOps0 (W0 m ρ c) (Proc.devRef .tc main_arg0) = _
  after_results_simp
theorem V1_arg3 (c : Dev nD) : V1 m ρ c main_arg3 = m ((c : Thread nD τ).loc main_arg3) := by
  show StableHlo.after hostOps0 (W0 m ρ c) (Proc.devRef .tc main_arg3) = _
  after_results_simp
theorem V1_arg4 (c : Dev nD) : V1 m ρ c main_arg4 = m ((c : Thread nD τ).loc main_arg4) := by
  show StableHlo.after hostOps0 (W0 m ρ c) (Proc.devRef .tc main_arg4) = _
  after_results_simp

/-! ## The first stage -/

/-- The first stage: the rectified layer of the inputs. -/
def feat (c : Dev nD) : S100000x100.Idx → EReal :=
  rectify (layer (nbrSum (m ((c : Thread nD τ).loc main_arg0)) (m ((c : Thread nD τ).loc main_arg1))) (m ((c : Thread nD τ).loc main_arg0)) (clampedDeg (m ((c : Thread nD τ).loc main_arg1)))
    (m ((c : Thread nD τ).loc main_arg3)) (m ((c : Thread nD τ).loc main_arg4)) (m ((c : Thread nD τ).loc main_arg5)))

/-- After the first grid its result array holds the first stage. -/
theorem W2_v24 (c : Dev nD) : W2 m ρ c (Proc.devRef .tc main_v24) = feat m c := by
  refine (W2_arr m ρ c 6).trans ((Cert.KernelIdeal.Region0.region0 (V1 m ρ) c).trans ?_)
  funext j
  obtain ⟨n, q, rfl⟩ : ∃ (n : Fin 100000) (q : Fin 100), j = ix2 n q := ⟨j 0, j 1, eq_ix2 (n0 := 100000) (n1 := 100) j⟩
  show max (rowAt (V1 m ρ c main_v22) (V1 m ρ c main_arg0) (V1 m ρ c main_v12) (V1 m ρ c main_arg3) (V1 m ρ c main_arg4) (V1 m ρ c main_v23) n q) 0
    = max (layerAt (nbrSum (m ((c : Thread nD τ).loc main_arg0)) (m ((c : Thread nD τ).loc main_arg1))) (m ((c : Thread nD τ).loc main_arg0)) (clampedDeg (m ((c : Thread nD τ).loc main_arg1)))
        (m ((c : Thread nD τ).loc main_arg3)) (m ((c : Thread nD τ).loc main_arg4)) (m ((c : Thread nD τ).loc main_arg5)) n q) 0
  refine congrArg (max · 0) ?_
  exact rowAt_eq_layerAt _ _ _ _ _ _ _ _ _ _ _ _ n q (V1_v22 m ρ c) (V1_arg0 m ρ c) (V1_v12 m ρ c n) (one_le_clampedDeg _ n)
    (V1_arg3 m ρ c) (V1_arg4 m ρ c) (V1_v23 m ρ c q)

/-! ## What the second grid starts from -/

/-- The edge list's sources and targets, formed before the first grid, are still there after it. -/
theorem W2_v1 (c : Dev nD) : W2 m ρ c (Proc.devRef .tc main_v1) = Cert.ReferenceIdeal.Read.val_main_v1 (F := Ideal) (m ((c : Thread nD τ).loc main_arg1)) := by
  refine (W2_of_ne m ρ c main_v1 (by decide)).trans ?_
  show StableHlo.after hostOps0 (W0 m ρ c) (Proc.devRef .tc main_v1) = _
  after_results_simp
  rfl
theorem W2_v3 (c : Dev nD) : W2 m ρ c (Proc.devRef .tc main_v3) = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  after_results_simp
  rfl

/-- The arguments the second stretch and the second grid read are as launched after the first grid. -/
theorem W2_arg6 (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results_simp
theorem W2_arg7 (c : Dev nD) : W2 m ρ c (Proc.devRef .tc main_arg7) = m ((c : Thread nD τ).loc main_arg7) := by
  refine (W2_of_ne m ρ c main_arg7 (by decide)).trans ?_
  show StableHlo.after hostOps0 (W0 m ρ c) (Proc.devRef .tc main_arg7) = _
  after_results_simp
theorem W2_arg8 (c : Dev nD) : W2 m ρ c (Proc.devRef .tc main_arg8) = m ((c : Thread nD τ).loc main_arg8) := by
  refine (W2_of_ne m ρ c main_arg8 (by decide)).trans ?_
  show StableHlo.after hostOps0 (W0 m ρ c) (Proc.devRef .tc main_arg8) = _
  after_results_simp
theorem W2_arg9 (c : Dev nD) : W2 m ρ c (Proc.devRef .tc main_arg9) = m ((c : Thread nD τ).loc main_arg9) := by
  refine (W2_of_ne m ρ c main_arg9 (by decide)).trans ?_
  show StableHlo.after hostOps0 (W0 m ρ c) (Proc.devRef .tc main_arg9) = _
  after_results_simp
theorem W2_arg10 (c : Dev nD) : W2 m ρ c (Proc.devRef .tc main_arg10) = m ((c : Thread nD τ).loc main_arg10) := by
  refine (W2_of_ne m ρ c main_arg10 (by decide)).trans ?_
  show StableHlo.after hostOps0 (W0 m ρ c) (Proc.devRef .tc main_arg10) = _
  after_results_simp
theorem W2_arg11 (c : Dev nD) : W2 m ρ c (Proc.devRef .tc main_arg11) = m ((c : Thread nD τ).loc main_arg11) := by
  refine (W2_of_ne m ρ c main_arg11 (by decide)).trans ?_
  show StableHlo.after hostOps0 (W0 m ρ c) (Proc.devRef .tc main_arg11) = _
  after_results_simp

/-- The neighbour sums of the first stage. -/
theorem V3_v34 (c : Dev nD) : V3 m ρ c main_v34 = nbrSum (feat m c) (m ((c : Thread nD τ).loc main_arg1)) := by
  show StableHlo.after hostOps1 (W2 m ρ c) (Proc.devRef .tc main_v34) = _
  after_results_simp
  rw [W2_v24, W2_v1, W2_v3]
  rfl

/-- The first stage itself. -/
theorem V3_v24 (c : Dev nD) : V3 m ρ c main_v24 = feat m c := by
  show StableHlo.after hostOps1 (W2 m ρ c) (Proc.devRef .tc main_v24) = _
  after_results_simp
  exact W2_v24 m ρ c

/-- The reciprocal column, unchanged. -/
theorem V3_v12 (c : Dev nD) (n : Fin 100000) :
    V3 m ρ c main_v12 (ix2 n (0 : Fin 1)) = Ideal.div 1 (clampedDeg (m ((c : Thread nD τ).loc main_arg1)) (ix1 n)) := by
  have h : V3 m ρ c main_v12 = V1 m ρ c main_v12 := by
    show StableHlo.after hostOps1 (W2 m ρ c) (Proc.devRef .tc main_v12) = _
    after_results_simp
    exact (W2_arr m ρ c 2).trans (((dat0 (V1 m ρ) c).arrAt_in 2 rfl _).trans (A_eq0 (V1 m ρ) c 2))
  rw [h]
  exact V1_v12 m ρ c n

/-- The two heads' biases as one-row arrays. -/
theorem V3_v35 (c : Dev nD) (q : Fin 100) : V3 m ρ c main_v35 (ix2 (0 : Fin 1) q) = m ((c : Thread nD τ).loc main_arg8) (ix1 q) := by
  have h : V3 m ρ c main_v35 = shapeCast S1x100 (m ((c : Thread nD τ).loc main_arg8)) shapeCasts_S100_S1x100 := by
    show StableHlo.after hostOps1 (W2 m ρ c) (Proc.devRef .tc main_v35) = _
    after_results_simp
    rw [W2_arg8]
    rfl
  rw [h]
  exact shapeCast_a_1a_apply _ shapeCasts_S100_S1x100 0 q
theorem V3_v36 (c : Dev nD) (q : Fin 100) : V3 m ρ c main_v36 (ix2 (0 : Fin 1) q) = m ((c : Thread nD τ).loc main_arg11) (ix1 q) := by
  have h : V3 m ρ c main_v36 = shapeCast S1x100 (m ((c : Thread nD τ).loc main_arg11)) shapeCasts_S100_S1x100 := by
    show StableHlo.after hostOps1 (W2 m ρ c) (Proc.devRef .tc main_v36) = _
    after_results_simp
    rw [W2_arg11]
    rfl
  rw [h]
  exact shapeCast_a_1a_apply _ shapeCasts_S100_S1x100 0 q

/-- The heads' weight matrices, as launched. -/
theorem V3_arg6 (c : Dev nD) : V3 m ρ c main_arg6 = m ((c : Thread nD τ).loc main_arg6) := by
  show StableHlo.after hostOps1 (W2 m ρ c) (Proc.devRef .tc main_arg6) = _
  after_results_simp
  exact W2_arg6 m ρ c
theorem V3_arg7 (c : Dev nD) : V3 m ρ c main_arg7 = m ((c : Thread nD τ).loc main_arg7) := by
  show StableHlo.after hostOps1 (W2 m ρ c) (Proc.devRef .tc main_arg7) = _
  after_results_simp
  exact W2_arg7 m ρ c
theorem V3_arg9 (c : Dev nD) : V3 m ρ c main_arg9 = m ((c : Thread nD τ).loc main_arg9) := by
  show StableHlo.after hostOps1 (W2 m ρ c) (Proc.devRef .tc main_arg9) = _
  after_results_simp
  exact W2_arg9 m ρ c
theorem V3_arg10 (c : Dev nD) : V3 m ρ c main_arg10 = m ((c : Thread nD τ).loc main_arg10) := by
  show StableHlo.after hostOps1 (W2 m ρ c) (Proc.devRef .tc main_arg10) = _
  after_results_simp
  exact W2_arg10 m ρ c

/-! ## The two results -/

/-- THE FIRST RESULT is the layer of the first stage under the first head's weights. -/
theorem result0 (c : Dev nD) : W4 m ρ c (Proc.devRef .tc main_v37_0)
    = layer (nbrSum (feat m c) (m ((c : Thread nD τ).loc main_arg1))) (feat m c) (clampedDeg (m ((c : Thread nD τ).loc main_arg1)))
        (m ((c : Thread nD τ).loc main_arg6)) (m ((c : Thread nD τ).loc main_arg7)) (m ((c : Thread nD τ).loc main_arg8)) := by
  refine (W4_arr m ρ c 9).trans ((Cert.KernelIdeal.Region1.region1_9 (V3 m ρ) c).trans ?_)
  funext j
  obtain ⟨n, q, rfl⟩ : ∃ (n : Fin 100000) (q : Fin 100), j = ix2 n q := ⟨j 0, j 1, eq_ix2 (n0 := 100000) (n1 := 100) j⟩
  show rowAt (V3 m ρ c main_v34) (V3 m ρ c main_v24) (V3 m ρ c main_v12) (V3 m ρ c main_arg6) (V3 m ρ c main_arg7) (V3 m ρ c main_v35) n q
    = layerAt (nbrSum (feat m c) (m ((c : Thread nD τ).loc main_arg1))) (feat m c) (clampedDeg (m ((c : Thread nD τ).loc main_arg1)))
        (m ((c : Thread nD τ).loc main_arg6)) (m ((c : Thread nD τ).loc main_arg7)) (m ((c : Thread nD τ).loc main_arg8)) n q
  exact rowAt_eq_layerAt _ _ _ _ _ _ _ _ _ _ _ _ n q (V3_v34 m ρ c) (V3_v24 m ρ c) (V3_v12 m ρ c n) (one_le_clampedDeg _ n)
    (V3_arg6 m ρ c) (V3_arg7 m ρ c) (V3_v35 m ρ c q)

/-- THE SECOND RESULT is the same under the second head's weights. -/
theorem result1 (c : Dev nD) : W4 m ρ c (Proc.devRef .tc main_v37_1)
    = layer (nbrSum (feat m c) (m ((c : Thread nD τ).loc main_arg1))) (feat m c) (clampedDeg (m ((c : Thread nD τ).loc main_arg1)))
        (m ((c : Thread nD τ).loc main_arg9)) (m ((c : Thread nD τ).loc main_arg10)) (m ((c : Thread nD τ).loc main_arg11)) := by
  refine (W4_arr m ρ c 10).trans ((Cert.KernelIdeal.Region1.region1_10 (V3 m ρ) c).trans ?_)
  funext j
  obtain ⟨n, q, rfl⟩ : ∃ (n : Fin 100000) (q : Fin 100), j = ix2 n q := ⟨j 0, j 1, eq_ix2 (n0 := 100000) (n1 := 100) j⟩
  show rowAt (V3 m ρ c main_v34) (V3 m ρ c main_v24) (V3 m ρ c main_v12) (V3 m ρ c main_arg9) (V3 m ρ c main_arg10) (V3 m ρ c main_v36) n q
    = layerAt (nbrSum (feat m c) (m ((c : Thread nD τ).loc main_arg1))) (feat m c) (clampedDeg (m ((c : Thread nD τ).loc main_arg1)))
        (m ((c : Thread nD τ).loc main_arg9)) (m ((c : Thread nD τ).loc main_arg10)) (m ((c : Thread nD τ).loc main_arg11)) n q
  exact rowAt_eq_layerAt _ _ _ _ _ _ _ _ _ _ _ _ n q (V3_v34 m ρ c) (V3_v24 m ρ c) (V3_v12 m ρ c n) (one_le_clampedDeg _ n)
    (V3_arg9 m ρ c) (V3_arg10 m ρ c) (V3_v36 m ρ c q)

end Cert.KernelIdeal.FoldValue

end
-- ==== Proof.lean ====
/-
  A two-layer graph network with mean aggregation: a fused kernel program against its plain reference.

  Both programs compute, from node features x, an edge list, and three pairs of weight matrices with their biases,

      feat = max(L(x; A₁, R₁, b₁), 0),      mu = L(feat; A₂, R₂, b₂),      var = L(feat; A₃, R₃, b₃),

  where the layer L(f; A, R, b) at node p and feature q is

      (∑ k, (s_f (p, k) / d p) · A (k, q)) + (∑ k, f (p, k) · R (k, q)) + b q,

  s_f the sum of the rows of f over the node's incoming edges and d the node's number of incoming edges raised to at
  least one.  The reference divides the neighbour sums by d and uses whole-array matrix products; it recomputes d for
  every layer.  The kernel program computes the reciprocal 1 / d once, carries it as a column, and in each of its two
  kernels multiplies a block of 10000 rows of neighbour sums by that column before the block's matrix products.

  Over the extended reals the two are equal entry by entry with no condition on the inputs: d is at least one, hence
  not zero, a quotient by a nonzero extended real is the product with its inverse, and 1 / d is that inverse, so
  s · (1 / d) = s / d; a matrix product into a zero accumulator and a general matrix product are the same sum over the
  shared coordinate; blocks of rows are computed independently, so ten blocks of 10000 rows are the whole array.  The
  gather of rows along the edge list's sources, the accumulating scatter along its targets and the degree count are
  the same operations in both programs and are never opened.

  The frames of the two kernel programs are the generated ones; the reference's frame is its generated run with the
  results dropped; nothing was rewritten by the idealization, so that claim is trivial.
-/
import proofs.«126210_j88064009437412_2_alg».proof.Defs
import proofs.«126210_j88064009437412_2_alg».proof.Proof.Gen.Kernel
import proofs.«126210_j88064009437412_2_alg».proof.Proof.Gen.Kernel.Skeleton
import proofs.«126210_j88064009437412_2_alg».proof.Proof.Gen.Kernel.Launch
import proofs.«126210_j88064009437412_2_alg».proof.Proof.Gen.Kernel.Points
import proofs.«126210_j88064009437412_2_alg».proof.Proof.Gen.Kernel.Frame
import proofs.«126210_j88064009437412_2_alg».proof.Proof.Gen.KernelIdeal
import proofs.«126210_j88064009437412_2_alg».proof.Proof.Gen.KernelIdeal.Skeleton
import proofs.«126210_j88064009437412_2_alg».proof.Proof.Gen.KernelIdeal.Launch
import proofs.«126210_j88064009437412_2_alg».proof.Proof.Gen.KernelIdeal.Points
import proofs.«126210_j88064009437412_2_alg».proof.Proof.Gen.KernelIdeal.Frame
import proofs.«126210_j88064009437412_2_alg».proof.Proof.Gen.ReferenceIdeal
import proofs.«126210_j88064009437412_2_alg».proof.Proof.Gen.ReferenceIdeal.Run
import proofs.«126210_j88064009437412_2_alg».proof.Proof.Gen.ReferenceIdeal.Read
import proofs.«126210_j88064009437412_2_alg».proof.Proof.Gen.Pre_finite_inputs
import proofs.«126210_j88064009437412_2_alg».proof.Proof.KernelRun
import proofs.«126210_j88064009437412_2_alg».proof.Proof.Fold
import proofs.«126210_j88064009437412_2_alg».proof.Proof.RefLayer
import Idealize.ShloMosaic.Adequacy
import Idealize.ShloMosaic.Init

noncomputable section

namespace Cert.Proof

open Idealize.ShloMosaic Idealize.ShloMosaic.TcCoe Idealize.SL.Sem
open Cert.Sage
open Cert.ReferenceIdeal.RefValue (nbrSum clampedDeg)

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference terminates with its arguments unchanged: its run, the two results dropped. -/
theorem frame_referenceIdeal : Cert.frame_ReferenceIdeal :=
  fun m ρ _ => (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the two heads' layers of the rectified first layer of the inputs. -/
theorem algebraic : Cert.algebraic_KernelIdeal_ReferenceIdeal := by
  intro m ρ m' ρ' _ hagree
  refine ⟨fun c => layer (nbrSum (Cert.KernelIdeal.FoldValue.feat m c) (m ((c.tc : Thread Cert.KernelIdeal.nD Cert.KernelIdeal.τ).loc Cert.KernelIdeal.main_arg1))) (Cert.KernelIdeal.FoldValue.feat m c)
        (clampedDeg (m ((c.tc : Thread Cert.KernelIdeal.nD Cert.KernelIdeal.τ).loc Cert.KernelIdeal.main_arg1))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => layer (nbrSum (Cert.KernelIdeal.FoldValue.feat m c) (m ((c.tc : Thread Cert.KernelIdeal.nD Cert.KernelIdeal.τ).loc Cert.KernelIdeal.main_arg1))) (Cert.KernelIdeal.FoldValue.feat m c)
        (clampedDeg (m ((c.tc : Thread Cert.KernelIdeal.nD Cert.KernelIdeal.τ).loc Cert.KernelIdeal.main_arg1))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.FoldValue.result0 m ρ c), (h c).2.1.trans (Cert.KernelIdeal.FoldValue.result1 m ρ c), (h c).2.2⟩)
      (Cert.KernelIdeal.RunValue.run_outputs m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, _, a3, a4, a5, a6, a7, a8, _, _, _⟩ := hagree c
      rw [Cert.ReferenceIdeal.Read.val_main_v54_eq, a0, a1, a3, a4, a5, a6, a7, a8, Cert.ReferenceIdeal.RefValue.mu_eq,
        Cert.ReferenceIdeal.RefValue.feat_eq]
      rfl
    · obtain ⟨a0, a1, _, a3, a4, a5, _, _, _, a9, a10, a11⟩ := hagree c
      rw [Cert.ReferenceIdeal.Read.val_main_v79_eq, a0, a1, a3, a4, a5, a9, a10, a11, Cert.ReferenceIdeal.RefValue.var_eq,
        Cert.ReferenceIdeal.RefValue.feat_eq]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
